-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x10 : Shape := ⟨2, ![1, 10]⟩

abbrev nBuf : Space → Nat
  | .hbm => 126
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x1, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S_, .f32⟩
  | .hbm, ⟨109, _⟩ => ⟨S64x64, .f32⟩
  | .hbm, ⟨110, _⟩ => ⟨S100000x1, .i32⟩
  | .hbm, ⟨111, _⟩ => ⟨S64x64, .f32⟩
  | .hbm, ⟨112, _⟩ => ⟨S_, .f32⟩
  | .hbm, ⟨113, _⟩ => ⟨S100000, .f32⟩
  | .hbm, ⟨114, _⟩ => ⟨S_, .f32⟩
  | .hbm, ⟨115, _⟩ => ⟨S64, .f32⟩
  | .hbm, ⟨116, _⟩ => ⟨S100000x1, .i32⟩
  | .hbm, ⟨117, _⟩ => ⟨S64, .f32⟩
  | .hbm, ⟨118, _⟩ => ⟨S_, .f32⟩
  | .hbm, ⟨119, _⟩ => ⟨S64, .f32⟩
  | .hbm, ⟨120, _⟩ => ⟨S64, .f32⟩
  | .hbm, ⟨121, _⟩ => ⟨S64x1, .f32⟩
  | .hbm, ⟨122, _⟩ => ⟨S64x64, .f32⟩
  | .hbm, ⟨123, _⟩ => ⟨S64x64, .f32⟩
  | .hbm, ⟨124, _⟩ => ⟨S1x10, .f32⟩
  | .hbm, ⟨125, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64x10, .f32⟩
  | .local _ .vmem, ⟨32, _⟩ => ⟨S1x10, .f32⟩
  | .local _ .vmem, ⟨33, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S10_S1x10 : S10.ShapeCasts S1x10
  shapeCasts_S64x64_S64x64 : S64x64.ShapeCasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x10 : Shape := ⟨2, ![1, 10]⟩

abbrev nBuf : Space → Nat
  | .hbm => 220
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S100000x64, .f32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .f32⟩
  | 59 => ⟨S64x64, .f32⟩
  | 60 => ⟨S100000x1, .i32⟩
  | 61 => ⟨S64x64, .f32⟩
  | 62 => ⟨S_, .f32⟩
  | 63 => ⟨S100000, .f32⟩
  | 64 => ⟨S_, .f32⟩
  | 65 => ⟨S64, .f32⟩
  | 66 => ⟨S100000x1, .i32⟩
  | 67 => ⟨S64, .f32⟩
  | 68 => ⟨S_, .f32⟩
  | 69 => ⟨S64, .f32⟩
  | 70 => ⟨S64, .f32⟩
  | 71 => ⟨S64x1, .f32⟩
  | 72 => ⟨S64x64, .f32⟩
  | 73 => ⟨S64x64, .f32⟩
  | 74 => ⟨S64x10, .f32⟩
  | 75 => ⟨S1x10, .f32⟩
  | 76 => ⟨S64x10, .f32⟩
  | 77 => ⟨S64x10, .f32⟩
  | 78 => ⟨S_, .f32⟩
  | 79 => ⟨S64, .f32⟩
  | 80 => ⟨S_, .f32⟩
  | 81 => ⟨S64, .f32⟩
  | 82 => ⟨S64, .f32⟩
  | 83 => ⟨S64x1, .f32⟩
  | 84 => ⟨S64x10, .f32⟩
  | 85 => ⟨S64x10, .f32⟩
  | 86 => ⟨S64x10, .f32⟩
  | 87 => ⟨S_, .f32⟩
  | 88 => ⟨S64, .f32⟩
  | 89 => ⟨S64x1, .f32⟩
  | 90 => ⟨S64x10, .f32⟩
  | 91 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_cst_20 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v97 : Ref sig .tc := ⟨.hbm, 144, rfl⟩
abbrev main_c_24 : Ref sig .tc := ⟨.hbm, 145, rfl⟩
abbrev main_v98 : Ref sig .tc := ⟨.hbm, 146, rfl⟩
abbrev main_v99 : Ref sig .tc := ⟨.hbm, 147, rfl⟩
abbrev main_c_25 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_c_26 : Ref sig .tc := ⟨.hbm, 154, rfl⟩
abbrev main_v105 : Ref sig .tc := ⟨.hbm, 155, rfl⟩
abbrev main_v106 : Ref sig .tc := ⟨.hbm, 156, rfl⟩
abbrev main_c_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_c_28 : Ref sig .tc := ⟨.hbm, 164, rfl⟩
abbrev main_v113 : Ref sig .tc := ⟨.hbm, 165, rfl⟩
abbrev main_v114 : Ref sig .tc := ⟨.hbm, 166, rfl⟩
abbrev main_c_29 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_call5_cst : Ref sig .tc := ⟨.hbm, 183, rfl⟩
abbrev main_call5_v0 : Ref sig .tc := ⟨.hbm, 184, rfl⟩
abbrev main_v129 : Ref sig .tc := ⟨.hbm, 185, rfl⟩
abbrev main_cst_31 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_32 : Ref sig .tc := ⟨.hbm, 190, rfl⟩
abbrev main_v133 : Ref sig .tc := ⟨.hbm, 191, rfl⟩
abbrev main_cst_33 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_34 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_35 : Ref sig .tc := ⟨.hbm, 206, rfl⟩
abbrev main_v146 : Ref sig .tc := ⟨.hbm, 207, rfl⟩
abbrev main_cst_36 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_37 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.NamedRun.lean ====
/-
  The idealized kernel's run with its result named.

  @main is fourteen segments: stretches of host operations and seven pipelined regions. The buffer contents at each
  segment boundary are a fold from the launch memory (a stretch applies its operations; a region replaces its arrays by
  what its write-backs leave). Every weakly fair execution terminates in a state whose unscoped buffers hold the last
  boundary's contents; in particular the result buffer holds the last boundary's contents at the result's reference,
  and each argument holds what it held at launch. The value of that last boundary's contents at the result is read
  back, segment by segment, in the modules that import this one.
-/
import proofs.«101654_j53386443489830_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and every argument array as launched. -/
theorem run : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.Keep.lean ====
/-
  Buffers that a stretch of @main neither writes nor a region replaces keep their contents across it.

  The buffer contents at the fourteen segment boundaries are a fold from the launch memory. A stretch of host operations
  changes only the buffers its operations write; a region changes only its output array (an input array is read through a
  window and left as entered). So each argument array holds its launch contents at every boundary before the point
  where it is used, and the three arrays computed once from the edge list (the edge sources, the edge destinations, the
  symmetric edge weights) hold at every later boundary what they held when the third stretch had computed them.
-/
import proofs.«101654_j53386443489830_1_alg».proof.Proof.Gen.KernelIdeal.Frame
import Idealize.ShloMosaic.PureOps.Ideal

set_option maxRecDepth 16384

noncomputable section

namespace Cert.KernelIdeal.Keep

open Cert.KernelIdeal Cert.KernelIdeal.Gen
open Idealize.ShloMosaic Idealize.ShloMosaic.TcCoe Idealize.SL.Sem
open Idealize.ShloMosaic.Pipeline (Dat Cfg Window)

/-- A stretch of host operations leaves a buffer none of its operations writes: the written references are compared with
    the buffer's one by one. -/
macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

theorem keep_main_arg0_W3 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := by stretch_keeps hostOps0_2
    _ = W1 (F := Ideal) m ρ c (Proc.devRef .tc main_arg0) := by stretch_keeps hostOps0_1
    _ = W0 (F := Ideal) m ρ c (Proc.devRef .tc main_arg0) := by stretch_keeps hostOps0
    _ = m ((c : Thread nD τ).loc main_arg0) := rfl

theorem keep_main_arg3_W3 : W3 (F := Ideal) m ρ c (Proc.devRef .tc main_arg3) = m ((c : Thread nD τ).loc main_arg3) :=
  calc W3 (F := Ideal) m ρ c (Proc.devRef .tc main_arg3)
    _ = W2 (F := Ideal) m ρ c (Proc.devRef .tc main_arg3) := by stretch_keeps hostOps0_2
    _ = W1 (F := Ideal) m ρ c (Proc.devRef .tc main_arg3) := by stretch_keeps hostOps0_1
    _ = W0 (F := Ideal) m ρ c (Proc.devRef .tc main_arg3) := by stretch_keeps hostOps0
    _ = m ((c : Thread nD τ).loc main_arg3) := rfl

theorem keep_main_arg4_W4 : W4 (F := Ideal) m ρ c (Proc.devRef .tc main_arg4) = m ((c : Thread nD τ).loc main_arg4) :=
  calc W4 (F := Ideal) m ρ c (Proc.devRef .tc main_arg4)
    _ = W3 (F := Ideal) m ρ c (Proc.devRef .tc main_arg4) := W4_of_ne m ρ c main_arg4 (by decide)
    _ = W2 (F := Ideal) m ρ c (Proc.devRef .tc main_arg4) := by stretch_keeps hostOps0_2
    _ = W1 (F := Ideal) m ρ c (Proc.devRef .tc main_arg4) := by stretch_keeps hostOps0_1
    _ = W0 (F := Ideal) m ρ c (Proc.devRef .tc main_arg4) := by stretch_keeps hostOps0
    _ = m ((c : Thread nD τ).loc main_arg4) := rfl

theorem keep_main_arg5_W6 : W6 (F := Ideal) m ρ c (Proc.devRef .tc main_arg5) = m ((c : Thread nD τ).loc main_arg5) :=
  calc W6 (F := Ideal) m ρ c (Proc.devRef .tc main_arg5)
    _ = W5 (F := Ideal) m ρ c (Proc.devRef .tc main_arg5) := W6_of_ne m ρ c main_arg5 (by decide)
    _ = W4 (F := Ideal) m ρ c (Proc.devRef .tc main_arg5) := by stretch_keeps hostOps1
    _ = W3 (F := Ideal) m ρ c (Proc.devRef .tc main_arg5) := W4_of_ne m ρ c main_arg5 (by decide)
    _ = W2 (F := Ideal) m ρ c (Proc.devRef .tc main_arg5) := by stretch_keeps hostOps0_2
    _ = W1 (F := Ideal) m ρ c (Proc.devRef .tc main_arg5) := by stretch_keeps hostOps0_1
    _ = W0 (F := Ideal) m ρ c (Proc.devRef .tc main_arg5) := by stretch_keeps hostOps0
    _ = m ((c : Thread nD τ).loc main_arg5) := rfl

theorem keep_main_arg6_W7 : W7 (F := Ideal) m ρ c (Proc.devRef .tc main_arg6) = m ((c : Thread nD τ).loc main_arg6) :=
  calc W7 (F := Ideal) m ρ c (Proc.devRef .tc main_arg6)
    _ = W6 (F := Ideal) m ρ c (Proc.devRef .tc main_arg6) := W7_of_ne m ρ c main_arg6 (by decide)
    _ = W5 (F := Ideal) m ρ c (Proc.devRef .tc main_arg6) := W6_of_ne m ρ c main_arg6 (by decide)
    _ = W4 (F := Ideal) m ρ c (Proc.devRef .tc main_arg6) := by stretch_keeps hostOps1
    _ = W3 (F := Ideal) m ρ c (Proc.devRef .tc main_arg6) := W4_of_ne m ρ c main_arg6 (by decide)
    _ = W2 (F := Ideal) m ρ c (Proc.devRef .tc main_arg6) := by stretch_keeps hostOps0_2
    _ = W1 (F := Ideal) m ρ c (Proc.devRef .tc main_arg6) := by stretch_keeps hostOps0_1
    _ = W0 (F := Ideal) m ρ c (Proc.devRef .tc main_arg6) := by stretch_keeps hostOps0
    _ = m ((c : Thread nD τ).loc main_arg6) := rfl

theorem keep_main_arg7_W9 : W9 (F := Ideal) m ρ c (Proc.devRef .tc main_arg7) = m ((c : Thread nD τ).loc main_arg7) :=
  calc W9 (F := Ideal) m ρ c (Proc.devRef .tc main_arg7)
    _ = W8 (F := Ideal) m ρ c (Proc.devRef .tc main_arg7) := W9_of_ne m ρ c main_arg7 (by decide)
    _ = W7 (F := Ideal) m ρ c (Proc.devRef .tc main_arg7) := by stretch_keeps hostOps3
    _ = W6 (F := Ideal) m ρ c (Proc.devRef .tc main_arg7) := W7_of_ne m ρ c main_arg7 (by decide)
    _ = W5 (F := Ideal) m ρ c (Proc.devRef .tc main_arg7) := W6_of_ne m ρ c main_arg7 (by decide)
    _ = W4 (F := Ideal) m ρ c (Proc.devRef .tc main_arg7) := by stretch_keeps hostOps1
    _ = W3 (F := Ideal) m ρ c (Proc.devRef .tc main_arg7) := W4_of_ne m ρ c main_arg7 (by decide)
    _ = W2 (F := Ideal) m ρ c (Proc.devRef .tc main_arg7) := by stretch_keeps hostOps0_2
    _ = W1 (F := Ideal) m ρ c (Proc.devRef .tc main_arg7) := by stretch_keeps hostOps0_1
    _ = W0 (F := Ideal) m ρ c (Proc.devRef .tc main_arg7) := by stretch_keeps hostOps0
    _ = m ((c : Thread nD τ).loc main_arg7) := rfl

theorem keep_main_arg8_W10 : W10 (F := Ideal) m ρ c (Proc.devRef .tc main_arg8) = m ((c : Thread nD τ).loc main_arg8) :=
  calc W10 (F := Ideal) m ρ c (Proc.devRef .tc main_arg8)
    _ = W9 (F := Ideal) m ρ c (Proc.devRef .tc main_arg8) := W10_of_ne m ρ c main_arg8 (by decide)
    _ = W8 (F := Ideal) m ρ c (Proc.devRef .tc main_arg8) := W9_of_ne m ρ c main_arg8 (by decide)
    _ = W7 (F := Ideal) m ρ c (Proc.devRef .tc main_arg8) := by stretch_keeps hostOps3
    _ = W6 (F := Ideal) m ρ c (Proc.devRef .tc main_arg8) := W7_of_ne m ρ c main_arg8 (by decide)
    _ = W5 (F := Ideal) m ρ c (Proc.devRef .tc main_arg8) := W6_of_ne m ρ c main_arg8 (by decide)
    _ = W4 (F := Ideal) m ρ c (Proc.devRef .tc main_arg8) := by stretch_keeps hostOps1
    _ = W3 (F := Ideal) m ρ c (Proc.devRef .tc main_arg8) := W4_of_ne m ρ c main_arg8 (by decide)
    _ = W2 (F := Ideal) m ρ c (Proc.devRef .tc main_arg8) := by stretch_keeps hostOps0_2
    _ = W1 (F := Ideal) m ρ c (Proc.devRef .tc main_arg8) := by stretch_keeps hostOps0_1
    _ = W0 (F := Ideal) m ρ c (Proc.devRef .tc main_arg8) := by stretch_keeps hostOps0
    _ = m ((c : Thread nD τ).loc main_arg8) := rfl

theorem keep_main_arg2_W12 : W12 (F := Ideal) m ρ c (Proc.devRef .tc main_arg2) = m ((c : Thread nD τ).loc main_arg2) :=
  calc W12 (F := Ideal) m ρ c (Proc.devRef .tc main_arg2)
    _ = W11 (F := Ideal) m ρ c (Proc.devRef .tc main_arg2) := W12_of_ne m ρ c main_arg2 (by decide)
    _ = W10 (F := Ideal) m ρ c (Proc.devRef .tc main_arg2) := by stretch_keeps hostOps5
    _ = W9 (F := Ideal) m ρ c (Proc.devRef .tc main_arg2) := W10_of_ne m ρ c main_arg2 (by decide)
    _ = W8 (F := Ideal) m ρ c (Proc.devRef .tc main_arg2) := W9_of_ne m ρ c main_arg2 (by decide)
    _ = W7 (F := Ideal) m ρ c (Proc.devRef .tc main_arg2) := by stretch_keeps hostOps3
    _ = W6 (F := Ideal) m ρ c (Proc.devRef .tc main_arg2) := W7_of_ne m ρ c main_arg2 (by decide)
    _ = W5 (F := Ideal) m ρ c (Proc.devRef .tc main_arg2) := W6_of_ne m ρ c main_arg2 (by decide)
    _ = W4 (F := Ideal) m ρ c (Proc.devRef .tc main_arg2) := by stretch_keeps hostOps1
    _ = W3 (F := Ideal) m ρ c (Proc.devRef .tc main_arg2) := W4_of_ne m ρ c main_arg2 (by decide)
    _ = W2 (F := Ideal) m ρ c (Proc.devRef .tc main_arg2) := by stretch_keeps hostOps0_2
    _ = W1 (F := Ideal) m ρ c (Proc.devRef .tc main_arg2) := by stretch_keeps hostOps0_1
    _ = W0 (F := Ideal) m ρ c (Proc.devRef .tc main_arg2) := by stretch_keeps hostOps0
    _ = m ((c : Thread nD τ).loc main_arg2) := rfl

theorem keep_main_arg10_W12 : W12 (F := Ideal) m ρ c (Proc.devRef .tc main_arg10) = m ((c : Thread nD τ).loc main_arg10) :=
  calc W12 (F := Ideal) m ρ c (Proc.devRef .tc main_arg10)
    _ = W11 (F := Ideal) m ρ c (Proc.devRef .tc main_arg10) := W12_of_ne m ρ c main_arg10 (by decide)
    _ = W10 (F := Ideal) m ρ c (Proc.devRef .tc main_arg10) := by stretch_keeps hostOps5
    _ = W9 (F := Ideal) m ρ c (Proc.devRef .tc main_arg10) := W10_of_ne m ρ c main_arg10 (by decide)
    _ = W8 (F := Ideal) m ρ c (Proc.devRef .tc main_arg10) := W9_of_ne m ρ c main_arg10 (by decide)
    _ = W7 (F := Ideal) m ρ c (Proc.devRef .tc main_arg10) := by stretch_keeps hostOps3
    _ = W6 (F := Ideal) m ρ c (Proc.devRef .tc main_arg10) := W7_of_ne m ρ c main_arg10 (by decide)
    _ = W5 (F := Ideal) m ρ c (Proc.devRef .tc main_arg10) := W6_of_ne m ρ c main_arg10 (by decide)
    _ = W4 (F := Ideal) m ρ c (Proc.devRef .tc main_arg10) := by stretch_keeps hostOps1
    _ = W3 (F := Ideal) m ρ c (Proc.devRef .tc main_arg10) := W4_of_ne m ρ c main_arg10 (by decide)
    _ = W2 (F := Ideal) m ρ c (Proc.devRef .tc main_arg10) := by stretch_keeps hostOps0_2
    _ = W1 (F := Ideal) m ρ c (Proc.devRef .tc main_arg10) := by stretch_keeps hostOps0_1
    _ = W0 (F := Ideal) m ρ c (Proc.devRef .tc main_arg10) := by stretch_keeps hostOps0
    _ = m ((c : Thread nD τ).loc main_arg10) := rfl

theorem keep_main_arg9_W13 : W13 (F := Ideal) m ρ c (Proc.devRef .tc main_arg9) = m ((c : Thread nD τ).loc main_arg9) :=
  calc W13 (F := Ideal) m ρ c (Proc.devRef .tc main_arg9)
    _ = W12 (F := Ideal) m ρ c (Proc.devRef .tc main_arg9) := by stretch_keeps hostOps6
    _ = W11 (F := Ideal) m ρ c (Proc.devRef .tc main_arg9) := W12_of_ne m ρ c main_arg9 (by decide)
    _ = W10 (F := Ideal) m ρ c (Proc.devRef .tc main_arg9) := by stretch_keeps hostOps5
    _ = W9 (F := Ideal) m ρ c (Proc.devRef .tc main_arg9) := W10_of_ne m ρ c main_arg9 (by decide)
    _ = W8 (F := Ideal) m ρ c (Proc.devRef .tc main_arg9) := W9_of_ne m ρ c main_arg9 (by decide)
    _ = W7 (F := Ideal) m ρ c (Proc.devRef .tc main_arg9) := by stretch_keeps hostOps3
    _ = W6 (F := Ideal) m ρ c (Proc.devRef .tc main_arg9) := W7_of_ne m ρ c main_arg9 (by decide)
    _ = W5 (F := Ideal) m ρ c (Proc.devRef .tc main_arg9) := W6_of_ne m ρ c main_arg9 (by decide)
    _ = W4 (F := Ideal) m ρ c (Proc.devRef .tc main_arg9) := by stretch_keeps hostOps1
    _ = W3 (F := Ideal) m ρ c (Proc.devRef .tc main_arg9) := W4_of_ne m ρ c main_arg9 (by decide)
    _ = W2 (F := Ideal) m ρ c (Proc.devRef .tc main_arg9) := by stretch_keeps hostOps0_2
    _ = W1 (F := Ideal) m ρ c (Proc.devRef .tc main_arg9) := by stretch_keeps hostOps0_1
    _ = W0 (F := Ideal) m ρ c (Proc.devRef .tc main_arg9) := by stretch_keeps hostOps0
    _ = m ((c : Thread nD τ).loc main_arg9) := rfl

theorem keep_main_v3_W4 : W4 (F := Ideal) m ρ c (Proc.devRef .tc main_v3) = W3 (F := Ideal) m ρ c (Proc.devRef .tc main_v3) :=
  calc W4 (F := Ideal) m ρ c (Proc.devRef .tc main_v3)
    _ = W3 (F := Ideal) m ρ c (Proc.devRef .tc main_v3) := W4_of_ne m ρ c main_v3 (by decide)

theorem keep_main_v6_W4 : W4 (F := Ideal) m ρ c (Proc.devRef .tc main_v6) = W3 (F := Ideal) m ρ c (Proc.devRef .tc main_v6) :=
  calc W4 (F := Ideal) m ρ c (Proc.devRef .tc main_v6)
    _ = W3 (F := Ideal) m ρ c (Proc.devRef .tc main_v6) := W4_of_ne m ρ c main_v6 (by decide)

theorem keep_main_v29_W4 : W4 (F := Ideal) m ρ c (Proc.devRef .tc main_v29) = W3 (F := Ideal) m ρ c (Proc.devRef .tc main_v29) :=
  calc W4 (F := Ideal) m ρ c (Proc.devRef .tc main_v29)
    _ = W3 (F := Ideal) m ρ c (Proc.devRef .tc main_v29) := W4_of_ne m ρ c main_v29 (by decide)

theorem keep_main_v3_W7 : W7 (F := Ideal) m ρ c (Proc.devRef .tc main_v3) = W3 (F := Ideal) m ρ c (Proc.devRef .tc main_v3) :=
  calc W7 (F := Ideal) m ρ c (Proc.devRef .tc main_v3)
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := by stretch_keeps hostOps1
    _ = W3 (F := Ideal) m ρ c (Proc.devRef .tc main_v3) := W4_of_ne m ρ c main_v3 (by decide)

theorem keep_main_v6_W7 : W7 (F := Ideal) m ρ c (Proc.devRef .tc main_v6) = W3 (F := Ideal) m ρ c (Proc.devRef .tc main_v6) :=
  calc W7 (F := Ideal) m ρ c (Proc.devRef .tc main_v6)
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by stretch_keeps hostOps1
    _ = W3 (F := Ideal) m ρ c (Proc.devRef .tc main_v6) := W4_of_ne m ρ c main_v6 (by decide)

theorem keep_main_v29_W7 : W7 (F := Ideal) m ρ c (Proc.devRef .tc main_v29) = W3 (F := Ideal) m ρ c (Proc.devRef .tc main_v29) :=
  calc W7 (F := Ideal) m ρ c (Proc.devRef .tc main_v29)
    _ = W6 (F := Ideal) m ρ c (Proc.devRef .tc main_v29) := W7_of_ne m ρ c main_v29 (by decide)
    _ = W5 (F := Ideal) m ρ c (Proc.devRef .tc main_v29) := W6_of_ne m ρ c main_v29 (by decide)
    _ = W4 (F := Ideal) m ρ c (Proc.devRef .tc main_v29) := by stretch_keeps hostOps1
    _ = W3 (F := Ideal) m ρ c (Proc.devRef .tc main_v29) := W4_of_ne m ρ c main_v29 (by decide)

theorem keep_main_v3_W10 : W10 (F := Ideal) m ρ c (Proc.devRef .tc main_v3) = W3 (F := Ideal) m ρ c (Proc.devRef .tc main_v3) :=
  calc W10 (F := Ideal) m ρ c (Proc.devRef .tc main_v3)
    _ = W9 (F := Ideal) m ρ c (Proc.devRef .tc main_v3) := W10_of_ne m ρ c main_v3 (by decide)
    _ = W8 (F := Ideal) m ρ c (Proc.devRef .tc main_v3) := W9_of_ne m ρ c main_v3 (by decide)
    _ = W7 (F := Ideal) m ρ c (Proc.devRef .tc main_v3) := by stretch_keeps hostOps3
    _ = W6 (F := Ideal) m ρ c (Proc.devRef .tc main_v3) := W7_of_ne m ρ c main_v3 (by decide)
    _ = W5 (F := Ideal) m ρ c (Proc.devRef .tc main_v3) := W6_of_ne m ρ c main_v3 (by decide)
    _ = W4 (F := Ideal) m ρ c (Proc.devRef .tc main_v3) := by stretch_keeps hostOps1
    _ = W3 (F := Ideal) m ρ c (Proc.devRef .tc main_v3) := W4_of_ne m ρ c main_v3 (by decide)

theorem keep_main_v6_W10 : W10 (F := Ideal) m ρ c (Proc.devRef .tc main_v6) = W3 (F := Ideal) m ρ c (Proc.devRef .tc main_v6) :=
  calc W10 (F := Ideal) m ρ c (Proc.devRef .tc main_v6)
    _ = W9 (F := Ideal) m ρ c (Proc.devRef .tc main_v6) := W10_of_ne m ρ c main_v6 (by decide)
    _ = W8 (F := Ideal) m ρ c (Proc.devRef .tc main_v6) := W9_of_ne m ρ c main_v6 (by decide)
    _ = W7 (F := Ideal) m ρ c (Proc.devRef .tc main_v6) := by stretch_keeps hostOps3
    _ = W6 (F := Ideal) m ρ c (Proc.devRef .tc main_v6) := W7_of_ne m ρ c main_v6 (by decide)
    _ = W5 (F := Ideal) m ρ c (Proc.devRef .tc main_v6) := W6_of_ne m ρ c main_v6 (by decide)
    _ = W4 (F := Ideal) m ρ c (Proc.devRef .tc main_v6) := by stretch_keeps hostOps1
    _ = W3 (F := Ideal) m ρ c (Proc.devRef .tc main_v6) := W4_of_ne m ρ c main_v6 (by decide)

theorem keep_main_v29_W10 : W10 (F := Ideal) m ρ c (Proc.devRef .tc main_v29) = W3 (F := Ideal) m ρ c (Proc.devRef .tc main_v29) :=
  calc W10 (F := Ideal) m ρ c (Proc.devRef .tc main_v29)
    _ = W9 (F := Ideal) m ρ c (Proc.devRef .tc main_v29) := W10_of_ne m ρ c main_v29 (by decide)
    _ = W8 (F := Ideal) m ρ c (Proc.devRef .tc main_v29) := W9_of_ne m ρ c main_v29 (by decide)
    _ = W7 (F := Ideal) m ρ c (Proc.devRef .tc main_v29) := by stretch_keeps hostOps3
    _ = W6 (F := Ideal) m ρ c (Proc.devRef .tc main_v29) := W7_of_ne m ρ c main_v29 (by decide)
    _ = W5 (F := Ideal) m ρ c (Proc.devRef .tc main_v29) := W6_of_ne m ρ c main_v29 (by decide)
    _ = W4 (F := Ideal) m ρ c (Proc.devRef .tc main_v29) := by stretch_keeps hostOps1
    _ = W3 (F := Ideal) m ρ c (Proc.devRef .tc main_v29) := W4_of_ne m ρ c main_v29 (by decide)

end Cert.KernelIdeal.Keep

end
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.Dense0.lean ====
/-
  Region 0: the first layer's projection `x · W1`, computed ten thousand rows at a time.

  The region is a pipeline over ten grid points; point `t` fetches rows `10000·t … 10000·t + 9999` of the left array and
  the whole right array, multiplies them into a zero accumulator (the change of float format in front of the
  multiplication is the identity on extended reals), and writes the product back as rows `10000·t …` of the output.
  Entry `(p, q)` of a tile's product is `∑ k, left (10000·t + p, k) · right (k, q)`, which is entry
  `(10000·t + p, q)` of the product of the whole arrays; the ten tiles cover the output, so the output array ends
  holding the whole product, in the spelling the host program uses for it.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The whole product, as the host program spells it. -/
abbrev product (L : FVec Ideal S100000x128 .f32) (R : FVec Ideal S128x64 .f32) : FVec Ideal S100000x64 .f32 :=
  Host.dotGeneral (F := Ideal) Cert.ReferenceIdeal.dot_S100000x128_S128x64_S100000x64_1_0_0_1_n_n none L R

/-- Entry `(a, q)` of the whole product is the sum over `k` of the left array at `(a, k)` times the right at `(k, q)`. -/
theorem product_apply (L : FVec Ideal S100000x128 .f32) (R : FVec Ideal S128x64 .f32) (a : Fin 100000) (q : Fin 64) :
    product L R (ix2 a q) = ∑ k : Fin 128, L (ix2 a k) * R (ix2 k q) := by
  unfold product
  simp only [Host.dotGeneral]
  exact RowOps.dotGeneral_plain_apply Cert.ReferenceIdeal.dot_S100000x128_S128x64_S100000x64_1_0_0_1_n_n ⟨_, rfl⟩ _ _ L R a q

/-- Entry `(p, q)` of a tile's product is the sum over `k` of the left tile at `(p, k)` times the right array at `(k, q)`. -/
theorem tile_apply (x0 : FVec Ideal S10000x128 .f32) (x1 : FVec Ideal S128x64 .f32) (p : Fin 10000) (q : Fin 64) :
    k0_pay1 (F := Ideal) x0 x1 (ix2 p q) = ∑ k : Fin 128, x0 (ix2 p k) * x1 (ix2 k q) := by
  unfold k0_pay1
  exact RowOps.matmul_zero_plain_apply _ ⟨_, rfl⟩ none _ _ p q

section
variable (V : (c : Dev nD) → (b : Ref sig .tc) → Buf (Elt Ideal) ((c : Thread nD τ).loc b))

/-- The printed index maps over the grid: the left window and the output window sit on tile row `t`, column block 0; the
    right window is always block (0, 0). -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the whole product. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x64) origin2]
  obtain ⟨e0, e1, e2, e3, e4, e5⟩ := tile_index t
  have hN : cfg0.N = 10 := N_0
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  show k0_pay1 (F := Ideal) (iblk0 V c 0 t) (iblk0 V c 1 t) (ix2 p q)
    = product (V c main_arg0) (V c main_arg3) (((cfg0.win 2).blk t).view.emb (ix2 p q))
  rw [hout, product_apply]
  refine (tile_apply (iblk0 V c 0 t) (iblk0 V c 1 t) p q).trans ?_
  refine Finset.sum_congr rfl fun k _ => ?_
  have hk : k.val < 128 := k.isLt
  have hl : iblk0 V c 0 t (ix2 p k) = V c main_arg0 (ix2 (⟨t.val * 10000 + p.val, by omega⟩ : Fin 100000) k) := by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  have hr : iblk0 V c 1 t (ix2 k q) = V c main_arg3 (ix2 k q) := by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  rw [hl, hr]

/-- An index of the output array is in point `t`'s tile iff each coordinate is in the tile's range on its axis. -/
theorem mem_tile (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole (Pipeline.arrRef spec0 2)).slice (win0_2.rect t)).set ↔ _
  rw [View.set_slice_whole, Rect.mem_set_unit]
  exact Iff.rfl

/-- Every index of the output lies in the tile of the point `row / 10000`. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  refine ⟨⟨(i 0).val / 10000, hlt⟩, flush0_2 _, ?_⟩
  rw [mem_tile]
  obtain ⟨e0, e1, e2, e3, e4, e5⟩ := tile_index ⟨(i 0).val / 10000, hlt⟩
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]
    omega

/-- The output array after the region is the product of the two input arrays as the region finds them. -/
theorem array_eq (c : Dev nD) :
    (dat0 V c).arrAt 2 cfg0.N = product (V c main_arg0) (V c main_arg3) :=
  (dat0 V c).arrAt_eq_of_cover 2 _ (fun t _ => flushed_eq V c t) covered

end

end Cert.KernelIdeal.Dense0

end
-- ==== Proof.Dense2.lean ====
/-
  Region 2: the second layer's projection `h · W2`, computed ten thousand rows at a time.

  The region is a pipeline over ten grid points; point `t` fetches rows `10000·t … 10000·t + 9999` of the left array and
  the whole right array, multiplies them into a zero accumulator (the change of float format in front of the
  multiplication is the identity on extended reals), and writes the product back as rows `10000·t …` of the output.
  Entry `(p, q)` of a tile's product is `∑ k, left (10000·t + p, k) · right (k, q)`, which is entry
  `(10000·t + p, q)` of the product of the whole arrays; the ten tiles cover the output, so the output array ends
  holding the whole product, in the spelling the host program uses for it.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The whole product, as the host program spells it. -/
abbrev product (L : FVec Ideal S100000x64 .f32) (R : FVec Ideal S64x64 .f32) : FVec Ideal S100000x64 .f32 :=
  Host.dotGeneral (F := Ideal) Cert.ReferenceIdeal.dot_S100000x64_S64x64_S100000x64_1_0_0_1_n_n none L R

/-- Entry `(a, q)` of the whole product is the sum over `k` of the left array at `(a, k)` times the right at `(k, q)`. -/
theorem product_apply (L : FVec Ideal S100000x64 .f32) (R : FVec Ideal S64x64 .f32) (a : Fin 100000) (q : Fin 64) :
    product L R (ix2 a q) = ∑ k : Fin 64, L (ix2 a k) * R (ix2 k q) := by
  unfold product
  simp only [Host.dotGeneral]
  exact RowOps.dotGeneral_plain_apply Cert.ReferenceIdeal.dot_S100000x64_S64x64_S100000x64_1_0_0_1_n_n ⟨_, rfl⟩ _ _ L R a q

/-- Entry `(p, q)` of a tile's product is the sum over `k` of the left tile at `(p, k)` times the right array at `(k, q)`. -/
theorem tile_apply (x0 : FVec Ideal S10000x64 .f32) (x1 : FVec Ideal S64x64 .f32) (p : Fin 10000) (q : Fin 64) :
    k2_pay1 (F := Ideal) x0 x1 (ix2 p q) = ∑ k : Fin 64, x0 (ix2 p k) * x1 (ix2 k q) := by
  unfold k2_pay1
  rw [shapeCast_self]
  exact RowOps.matmul_zero_plain_apply _ ⟨_, rfl⟩ none _ _ p q

section
variable (V : (c : Dev nD) → (b : Ref sig .tc) → Buf (Elt Ideal) ((c : Thread nD τ).loc b))

/-- The printed index maps over the grid: the left window and the output window sit on tile row `t`, column block 0; the
    right window is always block (0, 0). -/
theorem tile_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is tile `t` of the whole product. -/
theorem flushed_eq (c : Dev nD) (t : Fin cfg2.N) :
    (dat2 V c).flushed 2 t = ((cfg2.win 2).blk t).view.read (Elt Ideal) (product (V c main_v45) (V c main_arg5)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S64x64) origin2]
  obtain ⟨e0, e1, e2, e3, e4, e5⟩ := tile_index t
  have hN : cfg2.N = 10 := N_2
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  show k2_pay1 (F := Ideal) (iblk2 V c 0 t) (iblk2 V c 1 t) (ix2 p q)
    = product (V c main_v45) (V c main_arg5) (((cfg2.win 2).blk t).view.emb (ix2 p q))
  rw [hout, product_apply]
  refine (tile_apply (iblk2 V c 0 t) (iblk2 V c 1 t) p q).trans ?_
  refine Finset.sum_congr rfl fun k _ => ?_
  have hk : k.val < 64 := k.isLt
  have hl : iblk2 V c 0 t (ix2 p k) = V c main_v45 (ix2 (⟨t.val * 10000 + p.val, by omega⟩ : Fin 100000) k) := by
    show V c main_v45 (((cfg2.win 0).blk t).view.emb (ix2 p k)) = _
    refine congrArg (V c main_v45) (funext fun a => Fin.ext ?_)
    match a with
    | ⟨0, _⟩ => show win2_0.index t (0 : Fin 2) * 10000 + 1 * p.val = t.val * 10000 + p.val; omega
    | ⟨1, _⟩ => show win2_0.index t (1 : Fin 2) * 64 + 1 * k.val = k.val; omega
  have hr : iblk2 V c 1 t (ix2 k q) = V c main_arg5 (ix2 k q) := by
    show V c main_arg5 (((cfg2.win 1).blk t).view.emb (ix2 k q)) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  rw [hl, hr]

/-- An index of the output array is in point `t`'s tile iff each coordinate is in the tile's range on its axis. -/
theorem mem_tile (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole (Pipeline.arrRef spec2 2)).slice (win2_2.rect t)).set ↔ _
  rw [View.set_slice_whole, Rect.mem_set_unit]
  exact Iff.rfl

/-- Every index of the output lies in the tile of the point `row / 10000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have hlt : (i 0).val / 10000 < cfg2.N := by rw [hN]; omega
  refine ⟨⟨(i 0).val / 10000, hlt⟩, flush2_2 _, ?_⟩
  rw [mem_tile]
  obtain ⟨e0, e1, e2, e3, e4, e5⟩ := tile_index ⟨(i 0).val / 10000, hlt⟩
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 64 ≤ (i 1).val ∧ (i 1).val < win2_2.index ⟨(i 0).val / 10000, hlt⟩ (1 : Fin 2) * 64 + 64
    rw [e5]
    omega

/-- The output array after the region is the product of the two input arrays as the region finds them. -/
theorem array_eq (c : Dev nD) :
    (dat2 V c).arrAt 2 cfg2.N = product (V c main_v45) (V c main_arg5) :=
  (dat2 V c).arrAt_eq_of_cover 2 _ (fun t _ => flushed_eq V c t) covered

end

end Cert.KernelIdeal.Dense2

end
-- ==== Proof.Dense4.lean ====
/-
  Region 4: the third layer's projection `h · W3`, computed ten thousand rows at a time.

  The region is a pipeline over ten grid points; point `t` fetches rows `10000·t … 10000·t + 9999` of the left array and
  the whole right array, multiplies them into a zero accumulator (the change of float format in front of the
  multiplication is the identity on extended reals), and writes the product back as rows `10000·t …` of the output.
  Entry `(p, q)` of a tile's product is `∑ k, left (10000·t + p, k) · right (k, q)`, which is entry
  `(10000·t + p, q)` of the product of the whole arrays; the ten tiles cover the output, so the output array ends
  holding the whole product, in the spelling the host program uses for it.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Dense4

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The whole product, as the host program spells it. -/
abbrev product (L : FVec Ideal S100000x64 .f32) (R : FVec Ideal S64x64 .f32) : FVec Ideal S100000x64 .f32 :=
  Host.dotGeneral (F := Ideal) Cert.ReferenceIdeal.dot_S100000x64_S64x64_S100000x64_1_0_0_1_n_n none L R

/-- Entry `(a, q)` of the whole product is the sum over `k` of the left array at `(a, k)` times the right at `(k, q)`. -/
theorem product_apply (L : FVec Ideal S100000x64 .f32) (R : FVec Ideal S64x64 .f32) (a : Fin 100000) (q : Fin 64) :
    product L R (ix2 a q) = ∑ k : Fin 64, L (ix2 a k) * R (ix2 k q) := by
  unfold product
  simp only [Host.dotGeneral]
  exact RowOps.dotGeneral_plain_apply Cert.ReferenceIdeal.dot_S100000x64_S64x64_S100000x64_1_0_0_1_n_n ⟨_, rfl⟩ _ _ L R a q

/-- Entry `(p, q)` of a tile's product is the sum over `k` of the left tile at `(p, k)` times the right array at `(k, q)`. -/
theorem tile_apply (x0 : FVec Ideal S10000x64 .f32) (x1 : FVec Ideal S64x64 .f32) (p : Fin 10000) (q : Fin 64) :
    k4_pay1 (F := Ideal) x0 x1 (ix2 p q) = ∑ k : Fin 64, x0 (ix2 p k) * x1 (ix2 k q) := by
  unfold k4_pay1
  rw [shapeCast_self]
  exact RowOps.matmul_zero_plain_apply _ ⟨_, rfl⟩ none _ _ p q

section
variable (V : (c : Dev nD) → (b : Ref sig .tc) → Buf (Elt Ideal) ((c : Thread nD τ).loc b))

/-- The printed index maps over the grid: the left window and the output window sit on tile row `t`, column block 0; the
    right window is always block (0, 0). -/
theorem tile_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is tile `t` of the whole product. -/
theorem flushed_eq (c : Dev nD) (t : Fin cfg4.N) :
    (dat4 V c).flushed 2 t = ((cfg4.win 2).blk t).view.read (Elt Ideal) (product (V c main_v61) (V c main_arg7)) := by
  show (cfg4.win 2).cut (grid4.coords t) ((dat4 V c).after 2 t) = _
  rw [after4_2]
  unfold out4_2
  rw [View.canon_unit_zero origin2]
  simp only [View.ld_unit_zero (S := S10000x64) origin2, View.ld_unit_zero (S := S64x64) origin2]
  obtain ⟨e0, e1, e2, e3, e4, e5⟩ := tile_index t
  have hN : cfg4.N = 10 := N_4
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg4.win 2).blk t).view.emb (ix2 p q) = ix2 (⟨t.val * 10000 + p.val, by omega⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 64 + 1 * q.val = q.val; omega
  show k4_pay1 (F := Ideal) (iblk4 V c 0 t) (iblk4 V c 1 t) (ix2 p q)
    = product (V c main_v61) (V c main_arg7) (((cfg4.win 2).blk t).view.emb (ix2 p q))
  rw [hout, product_apply]
  refine (tile_apply (iblk4 V c 0 t) (iblk4 V c 1 t) p q).trans ?_
  refine Finset.sum_congr rfl fun k _ => ?_
  have hk : k.val < 64 := k.isLt
  have hl : iblk4 V c 0 t (ix2 p k) = V c main_v61 (ix2 (⟨t.val * 10000 + p.val, by omega⟩ : Fin 100000) k) := by
    show V c main_v61 (((cfg4.win 0).blk t).view.emb (ix2 p k)) = _
    refine congrArg (V c main_v61) (funext fun a => Fin.ext ?_)
    match a with
    | ⟨0, _⟩ => show win4_0.index t (0 : Fin 2) * 10000 + 1 * p.val = t.val * 10000 + p.val; omega
    | ⟨1, _⟩ => show win4_0.index t (1 : Fin 2) * 64 + 1 * k.val = k.val; omega
  have hr : iblk4 V c 1 t (ix2 k q) = V c main_arg7 (ix2 k q) := by
    show V c main_arg7 (((cfg4.win 1).blk t).view.emb (ix2 k q)) = _
    refine congrArg (V c main_arg7) (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega
  rw [hl, hr]

/-- An index of the output array is in point `t`'s tile iff each coordinate is in the tile's range on its axis. -/
theorem mem_tile (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole (Pipeline.arrRef spec4 2)).slice (win4_2.rect t)).set ↔ _
  rw [View.set_slice_whole, Rect.mem_set_unit]
  exact Iff.rfl

/-- Every index of the output lies in the tile of the point `row / 10000`. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  have hlt : (i 0).val / 10000 < cfg4.N := by rw [hN]; omega
  refine ⟨⟨(i 0).val / 10000, hlt⟩, flush4_2 _, ?_⟩
  rw [mem_tile]
  obtain ⟨e0, e1, e2, e3, e4, e5⟩ := tile_index ⟨(i 0).val / 10000, hlt⟩
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win4_2.index ⟨(i 0).val / 10000, hlt⟩ (1 : Fin 2) * 64 ≤ (i 1).val ∧ (i 1).val < win4_2.index ⟨(i 0).val / 10000, hlt⟩ (1 : Fin 2) * 64 + 64
    rw [e5]
    omega

/-- The output array after the region is the product of the two input arrays as the region finds them. -/
theorem array_eq (c : Dev nD) :
    (dat4 V c).arrAt 2 cfg4.N = product (V c main_v61) (V c main_arg7) :=
  (dat4 V c).arrAt_eq_of_cover 2 _ (fun t _ => flushed_eq V c t) covered

end

end Cert.KernelIdeal.Dense4

end
-- ==== Proof.Act1.lean ====
/-
  Region 1: the first layer's bias and relu, `max (agg + b1, 0)`, computed ten thousand rows at a time.

  The region is a pipeline over ten grid points; point `t` fetches rows `10000·t … 10000·t + 9999` of the aggregated
  array and the one-row bias array, adds the bias row to every row of the tile, takes the maximum with zero, and writes
  the tile back as rows `10000·t …` of the output. Entry `(p, q)` of what point `t` writes is
  `max (agg (10000·t + p, q) + bias (0, q)) 0`, which is entry `(10000·t + p, q)` of the whole-array expression the host
  program writes for the same step (the bias row broadcast down the rows, the sum, the maximum with a broadcast zero);
  the ten tiles cover the output.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx

set_option maxRecDepth 16384

noncomputable section

namespace Cert.KernelIdeal.Act1

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The layer's activation, as the host program spells it: the bias row broadcast down the rows, added to the aggregated
    array, and the maximum with a broadcast zero. -/
abbrev activation (A : FVec Ideal S100000x64 .f32) (B : FVec Ideal S1x64 .f32) : FVec Ideal S100000x64 .f32 :=
  maximumf (F := Ideal) (addf A (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64 (constant (F := Ideal) Cert.ReferenceIdeal.S_ .f32 0x00000000#32))

/-- Entry `(a, q)` of the activation: `max (A (a, q) + B (0, q)) 0`. -/
theorem activation_apply (A : FVec Ideal S100000x64 .f32) (B : FVec Ideal S1x64 .f32) (a : Fin 100000) (q : Fin 64) :
    activation A B (ix2 a q)
      = FloatOps.maximumf (FloatOps.addf (A (ix2 a q)) (B (ix2 (0 : Fin 1) q))) (FloatOps.ofBits (F := Ideal) .f32 0x00000000#32) := by
  unfold activation
  show FloatOps.maximumf (FloatOps.addf (A (ix2 a q)) (broadcastInDim _ ![0, 1] Cert.ReferenceIdeal.Gen.bcast_S1x64_S100000x64_0_1 B (ix2 a q)))
    (broadcastInDim _ ![] Cert.ReferenceIdeal.Gen.bcast_S_S100000x64 (constant (F := Ideal) Cert.ReferenceIdeal.S_ .f32 0x00000000#32) (ix2 a q)) = _
  rw [broadcastInDim_apply ![0, 1] Cert.ReferenceIdeal.Gen.bcast_S1x64_S100000x64_0_1 B (ix2 a q) (ix2 (0 : Fin 1) q) (fun ax => by
      match ax with
      | ⟨0, _⟩ => show 0 = if (1 : Nat) = 1 then 0 else a.val; rw [if_pos rfl]
      | ⟨1, _⟩ => show q.val = if (64 : Nat) = 1 then 0 else q.val; rw [if_neg (by decide)]),
    RowOps.broadcastInDim_scalar_apply]
  rfl

/-- Entry `(p, q)` of a tile's result: `max (tile (p, q) + bias (0, q)) 0`. -/
theorem tile_apply (x0 : FVec Ideal S10000x64 .f32) (x1 : FVec Ideal S1x64 .f32) (p : Fin 10000) (q : Fin 64) :
    k1_pay1 (F := Ideal) x0 x1 (ix2 p q)
      = FloatOps.maximumf (FloatOps.addf (x0 (ix2 p q)) (x1 (ix2 (0 : Fin 1) q))) (FloatOps.ofBits (F := Ideal) .f32 0x00000000#32) := by
  unfold k1_pay1
  rw [shapeCast_self, shapeCast_self]
  show FloatOps.maximumf (FloatOps.addf (x0 (ix2 p q)) (broadcastTo S10000x64 x1 broadcasts_S1x64_S10000x64 (ix2 p q))) _ = _
  rw [broadcastTo_apply x1 broadcasts_S1x64_S10000x64 (ix2 p q) (ix2 (0 : Fin 1) q) (fun ax => by
      match ax with
      | ⟨0, _⟩ => show 0 = if (1 : Nat) = 1 then 0 else _; rw [if_pos rfl]
      | ⟨1, _⟩ => show q.val = if (64 : Nat) = 1 then 0 else q.val; rw [if_neg (by decide)])]
  rfl

section
variable (V : (c : Dev nD) → (b : Ref sig .tc) → Buf (Elt Ideal) ((c : Thread nD τ).loc b))

/-- The printed index maps over the grid: the aggregated array's window and the output window sit on tile row `t`,
    column block 0; the bias window is always block (0, 0). -/
theorem tile_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is tile `t` of the whole activation. -/
theorem flushed_eq (c : Dev nD) (t : Fin cfg1.N) :
    (dat1 V c).flushed 2 t = ((cfg1.win 2).blk t).view.read (Elt Ideal) (activation (V c main_v43) (V c main_v44)) := by
  show (cfg1.win 2).cut (grid1.coords t) ((dat1 V c).after 2 t) = _
  rw [after1_2]
  unfold out1_2
  rw [View.canon_unit_zero origin2]
  simp only [View.ld_unit_zero (S := S10000x64) origin2, View.ld_unit_zero (S := S1x64) origin2]
  obtain ⟨e0, e1, e2, e3, e4, e5⟩ := tile_index t
  have hN : cfg1.N = 10 := N_1
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  show k1_pay1 (F := Ideal) (iblk1 V c 0 t) (iblk1 V c 1 t) (ix2 p q)
    = activation (V c main_v43) (V c main_v44) (((cfg1.win 2).blk t).view.emb (ix2 p q))
  rw [hout, activation_apply]
  refine (tile_apply (iblk1 V c 0 t) (iblk1 V c 1 t) p q).trans ?_
  have hl : iblk1 V c 0 t (ix2 p q) = V c main_v43 (ix2 (⟨t.val * 10000 + p.val, by omega⟩ : Fin 100000) q) := by
    show V c main_v43 (((cfg1.win 0).blk t).view.emb (ix2 p q)) = _
    refine congrArg (V c main_v43) (funext fun a => Fin.ext ?_)
    match a with
    | ⟨0, _⟩ => show win1_0.index t (0 : Fin 2) * 10000 + 1 * p.val = t.val * 10000 + p.val; omega
    | ⟨1, _⟩ => show win1_0.index t (1 : Fin 2) * 64 + 1 * q.val = q.val; omega
  have hr : iblk1 V c 1 t (ix2 (0 : Fin 1) q) = V c main_v44 (ix2 (0 : Fin 1) q) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  rw [hl, hr]

/-- An index of the output array is in point `t`'s tile iff each coordinate is in the tile's range on its axis. -/
theorem mem_tile (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- Every index of the output lies in the tile of the point `row / 10000`. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have hlt : (i 0).val / 10000 < cfg1.N := by rw [hN]; omega
  refine ⟨⟨(i 0).val / 10000, hlt⟩, flush1_2 _, ?_⟩
  rw [mem_tile]
  obtain ⟨e0, e1, e2, e3, e4, e5⟩ := tile_index ⟨(i 0).val / 10000, hlt⟩
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    rw [e5]
    omega

/-- The output array after the region is the activation of the two input arrays as the region finds them. -/
theorem array_eq (c : Dev nD) :
    (dat1 V c).arrAt 2 cfg1.N = activation (V c main_v43) (V c main_v44) :=
  (dat1 V c).arrAt_eq_of_cover 2 _ (fun t _ => flushed_eq V c t) covered

end

end Cert.KernelIdeal.Act1

end
-- ==== Proof.Act3.lean ====
/-
  Region 3: the second layer's bias and relu, `max (agg + b2, 0)`, computed ten thousand rows at a time.

  The region is a pipeline over ten grid points; point `t` fetches rows `10000·t … 10000·t + 9999` of the aggregated
  array and the one-row bias array, adds the bias row to every row of the tile, takes the maximum with zero, and writes
  the tile back as rows `10000·t …` of the output. Entry `(p, q)` of what point `t` writes is
  `max (agg (10000·t + p, q) + bias (0, q)) 0`, which is entry `(10000·t + p, q)` of the whole-array expression the host
  program writes for the same step (the bias row broadcast down the rows, the sum, the maximum with a broadcast zero);
  the ten tiles cover the output.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx

set_option maxRecDepth 16384

noncomputable section

namespace Cert.KernelIdeal.Act3

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The layer's activation, as the host program spells it: the bias row broadcast down the rows, added to the aggregated
    array, and the maximum with a broadcast zero. -/
abbrev activation (A : FVec Ideal S100000x64 .f32) (B : FVec Ideal S1x64 .f32) : FVec Ideal S100000x64 .f32 :=
  maximumf (F := Ideal) (addf A (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64 (constant (F := Ideal) Cert.ReferenceIdeal.S_ .f32 0x00000000#32))

/-- Entry `(a, q)` of the activation: `max (A (a, q) + B (0, q)) 0`. -/
theorem activation_apply (A : FVec Ideal S100000x64 .f32) (B : FVec Ideal S1x64 .f32) (a : Fin 100000) (q : Fin 64) :
    activation A B (ix2 a q)
      = FloatOps.maximumf (FloatOps.addf (A (ix2 a q)) (B (ix2 (0 : Fin 1) q))) (FloatOps.ofBits (F := Ideal) .f32 0x00000000#32) := by
  unfold activation
  show FloatOps.maximumf (FloatOps.addf (A (ix2 a q)) (broadcastInDim _ ![0, 1] Cert.ReferenceIdeal.Gen.bcast_S1x64_S100000x64_0_1 B (ix2 a q)))
    (broadcastInDim _ ![] Cert.ReferenceIdeal.Gen.bcast_S_S100000x64 (constant (F := Ideal) Cert.ReferenceIdeal.S_ .f32 0x00000000#32) (ix2 a q)) = _
  rw [broadcastInDim_apply ![0, 1] Cert.ReferenceIdeal.Gen.bcast_S1x64_S100000x64_0_1 B (ix2 a q) (ix2 (0 : Fin 1) q) (fun ax => by
      match ax with
      | ⟨0, _⟩ => show 0 = if (1 : Nat) = 1 then 0 else a.val; rw [if_pos rfl]
      | ⟨1, _⟩ => show q.val = if (64 : Nat) = 1 then 0 else q.val; rw [if_neg (by decide)]),
    RowOps.broadcastInDim_scalar_apply]
  rfl

/-- Entry `(p, q)` of a tile's result: `max (tile (p, q) + bias (0, q)) 0`. -/
theorem tile_apply (x0 : FVec Ideal S10000x64 .f32) (x1 : FVec Ideal S1x64 .f32) (p : Fin 10000) (q : Fin 64) :
    k3_pay1 (F := Ideal) x0 x1 (ix2 p q)
      = FloatOps.maximumf (FloatOps.addf (x0 (ix2 p q)) (x1 (ix2 (0 : Fin 1) q))) (FloatOps.ofBits (F := Ideal) .f32 0x00000000#32) := by
  unfold k3_pay1
  rw [shapeCast_self, shapeCast_self]
  show FloatOps.maximumf (FloatOps.addf (x0 (ix2 p q)) (broadcastTo S10000x64 x1 broadcasts_S1x64_S10000x64 (ix2 p q))) _ = _
  rw [broadcastTo_apply x1 broadcasts_S1x64_S10000x64 (ix2 p q) (ix2 (0 : Fin 1) q) (fun ax => by
      match ax with
      | ⟨0, _⟩ => show 0 = if (1 : Nat) = 1 then 0 else _; rw [if_pos rfl]
      | ⟨1, _⟩ => show q.val = if (64 : Nat) = 1 then 0 else q.val; rw [if_neg (by decide)])]
  rfl

section
variable (V : (c : Dev nD) → (b : Ref sig .tc) → Buf (Elt Ideal) ((c : Thread nD τ).loc b))

/-- The printed index maps over the grid: the aggregated array's window and the output window sit on tile row `t`,
    column block 0; the bias window is always block (0, 0). -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is tile `t` of the whole activation. -/
theorem flushed_eq (c : Dev nD) (t : Fin cfg3.N) :
    (dat3 V c).flushed 2 t = ((cfg3.win 2).blk t).view.read (Elt Ideal) (activation (V c main_v59) (V c main_v60)) := by
  show (cfg3.win 2).cut (grid3.coords t) ((dat3 V c).after 2 t) = _
  rw [after3_2]
  unfold out3_2
  rw [View.canon_unit_zero origin2]
  simp only [View.ld_unit_zero (S := S10000x64) origin2, View.ld_unit_zero (S := S1x64) origin2]
  obtain ⟨e0, e1, e2, e3, e4, e5⟩ := tile_index t
  have hN : cfg3.N = 10 := N_3
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg3.win 2).blk t).view.emb (ix2 p q) = ix2 (⟨t.val * 10000 + p.val, by omega⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 64 + 1 * q.val = q.val; omega
  show k3_pay1 (F := Ideal) (iblk3 V c 0 t) (iblk3 V c 1 t) (ix2 p q)
    = activation (V c main_v59) (V c main_v60) (((cfg3.win 2).blk t).view.emb (ix2 p q))
  rw [hout, activation_apply]
  refine (tile_apply (iblk3 V c 0 t) (iblk3 V c 1 t) p q).trans ?_
  have hl : iblk3 V c 0 t (ix2 p q) = V c main_v59 (ix2 (⟨t.val * 10000 + p.val, by omega⟩ : Fin 100000) q) := by
    show V c main_v59 (((cfg3.win 0).blk t).view.emb (ix2 p q)) = _
    refine congrArg (V c main_v59) (funext fun a => Fin.ext ?_)
    match a with
    | ⟨0, _⟩ => show win3_0.index t (0 : Fin 2) * 10000 + 1 * p.val = t.val * 10000 + p.val; omega
    | ⟨1, _⟩ => show win3_0.index t (1 : Fin 2) * 64 + 1 * q.val = q.val; omega
  have hr : iblk3 V c 1 t (ix2 (0 : Fin 1) q) = V c main_v60 (ix2 (0 : Fin 1) q) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  rw [hl, hr]

/-- An index of the output array is in point `t`'s tile iff each coordinate is in the tile's range on its axis. -/
theorem mem_tile (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole (Pipeline.arrRef spec3 2)).slice (win3_2.rect t)).set ↔ _
  rw [View.set_slice_whole, Rect.mem_set_unit]
  exact Iff.rfl

/-- Every index of the output lies in the tile of the point `row / 10000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have hlt : (i 0).val / 10000 < cfg3.N := by rw [hN]; omega
  refine ⟨⟨(i 0).val / 10000, hlt⟩, flush3_2 _, ?_⟩
  rw [mem_tile]
  obtain ⟨e0, e1, e2, e3, e4, e5⟩ := tile_index ⟨(i 0).val / 10000, hlt⟩
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hlt⟩ (1 : Fin 2) * 64 ≤ (i 1).val ∧ (i 1).val < win3_2.index ⟨(i 0).val / 10000, hlt⟩ (1 : Fin 2) * 64 + 64
    rw [e5]
    omega

/-- The output array after the region is the activation of the two input arrays as the region finds them. -/
theorem array_eq (c : Dev nD) :
    (dat3 V c).arrAt 2 cfg3.N = activation (V c main_v59) (V c main_v60) :=
  (dat3 V c).arrAt_eq_of_cover 2 _ (fun t _ => flushed_eq V c t) covered

end

end Cert.KernelIdeal.Act3

end
-- ==== Proof.Act5.lean ====
/-
  Region 5: the third layer's bias and relu, `max (agg + b3, 0)`, computed ten thousand rows at a time.

  The region is a pipeline over ten grid points; point `t` fetches rows `10000·t … 10000·t + 9999` of the aggregated
  array and the one-row bias array, adds the bias row to every row of the tile, takes the maximum with zero, and writes
  the tile back as rows `10000·t …` of the output. Entry `(p, q)` of what point `t` writes is
  `max (agg (10000·t + p, q) + bias (0, q)) 0`, which is entry `(10000·t + p, q)` of the whole-array expression the host
  program writes for the same step (the bias row broadcast down the rows, the sum, the maximum with a broadcast zero);
  the ten tiles cover the output.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import Idealize.ShloMosaic.Lib.Pipeline.Value
import Idealize.ShloMosaic.Lib.ValueIdx

set_option maxRecDepth 16384

noncomputable section

namespace Cert.KernelIdeal.Act5

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-- The layer's activation, as the host program spells it: the bias row broadcast down the rows, added to the aggregated
    array, and the maximum with a broadcast zero. -/
abbrev activation (A : FVec Ideal S100000x64 .f32) (B : FVec Ideal S1x64 .f32) : FVec Ideal S100000x64 .f32 :=
  maximumf (F := Ideal) (addf A (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64 (constant (F := Ideal) Cert.ReferenceIdeal.S_ .f32 0x00000000#32))

/-- Entry `(a, q)` of the activation: `max (A (a, q) + B (0, q)) 0`. -/
theorem activation_apply (A : FVec Ideal S100000x64 .f32) (B : FVec Ideal S1x64 .f32) (a : Fin 100000) (q : Fin 64) :
    activation A B (ix2 a q)
      = FloatOps.maximumf (FloatOps.addf (A (ix2 a q)) (B (ix2 (0 : Fin 1) q))) (FloatOps.ofBits (F := Ideal) .f32 0x00000000#32) := by
  unfold activation
  show FloatOps.maximumf (FloatOps.addf (A (ix2 a q)) (broadcastInDim _ ![0, 1] Cert.ReferenceIdeal.Gen.bcast_S1x64_S100000x64_0_1 B (ix2 a q)))
    (broadcastInDim _ ![] Cert.ReferenceIdeal.Gen.bcast_S_S100000x64 (constant (F := Ideal) Cert.ReferenceIdeal.S_ .f32 0x00000000#32) (ix2 a q)) = _
  rw [broadcastInDim_apply ![0, 1] Cert.ReferenceIdeal.Gen.bcast_S1x64_S100000x64_0_1 B (ix2 a q) (ix2 (0 : Fin 1) q) (fun ax => by
      match ax with
      | ⟨0, _⟩ => show 0 = if (1 : Nat) = 1 then 0 else a.val; rw [if_pos rfl]
      | ⟨1, _⟩ => show q.val = if (64 : Nat) = 1 then 0 else q.val; rw [if_neg (by decide)]),
    RowOps.broadcastInDim_scalar_apply]
  rfl

/-- Entry `(p, q)` of a tile's result: `max (tile (p, q) + bias (0, q)) 0`. -/
theorem tile_apply (x0 : FVec Ideal S10000x64 .f32) (x1 : FVec Ideal S1x64 .f32) (p : Fin 10000) (q : Fin 64) :
    k5_pay1 (F := Ideal) x0 x1 (ix2 p q)
      = FloatOps.maximumf (FloatOps.addf (x0 (ix2 p q)) (x1 (ix2 (0 : Fin 1) q))) (FloatOps.ofBits (F := Ideal) .f32 0x00000000#32) := by
  unfold k5_pay1
  rw [shapeCast_self, shapeCast_self]
  show FloatOps.maximumf (FloatOps.addf (x0 (ix2 p q)) (broadcastTo S10000x64 x1 broadcasts_S1x64_S10000x64 (ix2 p q))) _ = _
  rw [broadcastTo_apply x1 broadcasts_S1x64_S10000x64 (ix2 p q) (ix2 (0 : Fin 1) q) (fun ax => by
      match ax with
      | ⟨0, _⟩ => show 0 = if (1 : Nat) = 1 then 0 else _; rw [if_pos rfl]
      | ⟨1, _⟩ => show q.val = if (64 : Nat) = 1 then 0 else q.val; rw [if_neg (by decide)])]
  rfl

section
variable (V : (c : Dev nD) → (b : Ref sig .tc) → Buf (Elt Ideal) ((c : Thread nD τ).loc b))

/-- The printed index maps over the grid: the aggregated array's window and the output window sit on tile row `t`,
    column block 0; the bias window is always block (0, 0). -/
theorem tile_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is tile `t` of the whole activation. -/
theorem flushed_eq (c : Dev nD) (t : Fin cfg5.N) :
    (dat5 V c).flushed 2 t = ((cfg5.win 2).blk t).view.read (Elt Ideal) (activation (V c main_v75) (V c main_v76)) := by
  show (cfg5.win 2).cut (grid5.coords t) ((dat5 V c).after 2 t) = _
  rw [after5_2]
  unfold out5_2
  rw [View.canon_unit_zero origin2]
  simp only [View.ld_unit_zero (S := S10000x64) origin2, View.ld_unit_zero (S := S1x64) origin2]
  obtain ⟨e0, e1, e2, e3, e4, e5⟩ := tile_index t
  have hN : cfg5.N = 10 := N_5
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  have hout : ((cfg5.win 2).blk t).view.emb (ix2 p q) = ix2 (⟨t.val * 10000 + p.val, by omega⟩ : Fin 100000) q := by
    funext a; apply Fin.ext
    match a with
    | ⟨0, _⟩ => show win5_2.index t (0 : Fin 2) * 10000 + 1 * p.val = t.val * 10000 + p.val; omega
    | ⟨1, _⟩ => show win5_2.index t (1 : Fin 2) * 64 + 1 * q.val = q.val; omega
  show k5_pay1 (F := Ideal) (iblk5 V c 0 t) (iblk5 V c 1 t) (ix2 p q)
    = activation (V c main_v75) (V c main_v76) (((cfg5.win 2).blk t).view.emb (ix2 p q))
  rw [hout, activation_apply]
  refine (tile_apply (iblk5 V c 0 t) (iblk5 V c 1 t) p q).trans ?_
  have hl : iblk5 V c 0 t (ix2 p q) = V c main_v75 (ix2 (⟨t.val * 10000 + p.val, by omega⟩ : Fin 100000) q) := by
    show V c main_v75 (((cfg5.win 0).blk t).view.emb (ix2 p q)) = _
    refine congrArg (V c main_v75) (funext fun a => Fin.ext ?_)
    match a with
    | ⟨0, _⟩ => show win5_0.index t (0 : Fin 2) * 10000 + 1 * p.val = t.val * 10000 + p.val; omega
    | ⟨1, _⟩ => show win5_0.index t (1 : Fin 2) * 64 + 1 * q.val = q.val; omega
  have hr : iblk5 V c 1 t (ix2 (0 : Fin 1) q) = V c main_v76 (ix2 (0 : Fin 1) q) := by
    show V c main_v76 (((cfg5.win 1).blk t).view.emb (ix2 (0 : Fin 1) q)) = _
    refine congrArg (V c main_v76) (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  rw [hl, hr]

/-- An index of the output array is in point `t`'s tile iff each coordinate is in the tile's range on its axis. -/
theorem mem_tile (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole (Pipeline.arrRef spec5 2)).slice (win5_2.rect t)).set ↔ _
  rw [View.set_slice_whole, Rect.mem_set_unit]
  exact Iff.rfl

/-- Every index of the output lies in the tile of the point `row / 10000`. -/
theorem covered (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have hlt : (i 0).val / 10000 < cfg5.N := by rw [hN]; omega
  refine ⟨⟨(i 0).val / 10000, hlt⟩, flush5_2 _, ?_⟩
  rw [mem_tile]
  obtain ⟨e0, e1, e2, e3, e4, e5⟩ := tile_index ⟨(i 0).val / 10000, hlt⟩
  intro a
  match a with
  | ⟨0, _⟩ =>
    show win5_2.index ⟨(i 0).val / 10000, hlt⟩ (0 : Fin 2) * 10000 ≤ (i 0).val ∧ (i 0).val < win5_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win5_2.index ⟨(i 0).val / 10000, hlt⟩ (1 : Fin 2) * 64 ≤ (i 1).val ∧ (i 1).val < win5_2.index ⟨(i 0).val / 10000, hlt⟩ (1 : Fin 2) * 64 + 64
    rw [e5]
    omega

/-- The output array after the region is the activation of the two input arrays as the region finds them. -/
theorem array_eq (c : Dev nD) :
    (dat5 V c).arrAt 2 cfg5.N = activation (V c main_v75) (V c main_v76) :=
  (dat5 V c).arrAt_eq_of_cover 2 _ (fun t _ => flushed_eq V c t) covered

end

end Cert.KernelIdeal.Act5

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Head.lean ====
/-
  Region 6: the classifier head — the pooled features times `Wl`, plus `bl`, then a softmax along each row.

  The region has one grid point and every window is its whole array, so what the point writes back is the whole output.
  The body computes, for the logits `ℓ = pooled · Wl + bl` (the change of float format in front of the product is the
  identity on extended reals): the row maximum `μ p = max (-∞) (max over c of ℓ (p, c))`, the shifted exponentials
  `e (p, c) = exp (ℓ (p, c) - μ p)`, the row sums `σ p = ∑ c, e (p, c)`, and stores `e (p, c) / σ p`. The host program
  writes the same steps with its own operations: its product of the two arrays, its row reduction by maximum from -∞,
  its exponential, its row sum from 0, its quotient; on extended reals each of these is the same function as the
  body's (a row reduction by maximum is the fold of `max` over the row, a row sum the plain sum, the zero initial value
  adds nothing), and a kept reduced axis reads the same entry whether it is written as a cast followed by a broadcast
  or as two broadcasts. So the output array is the host program's expression of the three input arrays.
-/
import proofs.«101654_j53386443489830_1_alg».proof.Proof.Gen.KernelIdeal.Frame
import proofs.«101654_j53386443489830_1_alg».proof.Proof.Gen.ReferenceIdeal
import proofs.«101654_j53386443489830_1_alg».proof.Proof.LibRowOps
import proofs.«101654_j53386443489830_1_alg».proof.Proof.LibColumns
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem origin2 : (![0, 0] : Fin 2 → Nat) = fun _ => 0 := funext fun a => by fin_cases a <;> rfl

/-! ## The host program's spelling of the head -/

/-- The logits: the host's product of the pooled features and the weights, plus the bias row broadcast down the rows. -/
abbrev hostLogits (P : FVec Ideal S64x64 .f32) (W : FVec Ideal S64x10 .f32) (B : FVec Ideal S1x10 .f32) :
    FVec Ideal S64x10 .f32 :=
  addf (F := Ideal) (Host.dotGeneral (F := Ideal) Cert.ReferenceIdeal.dot_S64x64_S64x10_S64x10_1_0_0_1_n_n none P W)
    (broadcastInDim Cert.ReferenceIdeal.S64x10 ![0, 1] Cert.ReferenceIdeal.Gen.bcast_S1x10_S64x10_0_1 B)

/-- The row maxima, as the host writes them: the reduction by maximum from -∞, and once more the maximum with -∞. -/
abbrev hostRowMax (L : FVec Ideal S64x10 .f32) : FVec Ideal S64 .f32 :=
  maximumf (F := Ideal) (broadcastInDim Cert.ReferenceIdeal.S64 ![] Cert.ReferenceIdeal.Gen.bcast_S_S64 (constant (F := Ideal) Cert.ReferenceIdeal.S_ .f32 0xFF800000#32))
    (Host.reduce FloatOps.maximumf L (constant (F := Ideal) Cert.ReferenceIdeal.S_ .f32 0xFF800000#32) Cert.ReferenceIdeal.Gen.reducesTo_S64x10_S64_d1 Cert.ReferenceIdeal.Gen.h_S_)

/-- A per-row value repeated along its row, as the host writes it: a broadcast to one column, then along the row. -/
abbrev hostColumn (M : FVec Ideal S64 .f32) : FVec Ideal S64x10 .f32 :=
  broadcastInDim Cert.ReferenceIdeal.S64x10 ![0, 1] Cert.ReferenceIdeal.Gen.bcast_S64x1_S64x10_0_1 (broadcastInDim Cert.ReferenceIdeal.S64x1 ![0] Cert.ReferenceIdeal.Gen.bcast_S64_S64x1_0 M)

/-- The exponentials of the logits shifted by their row maximum. -/
abbrev hostShifted (L : FVec Ideal S64x10 .f32) : FVec Ideal S64x10 .f32 :=
  Host.exp (F := Ideal) (subf L (hostColumn (hostRowMax L)))

/-- The softmax along each row: the shifted exponentials over their row sums. -/
abbrev hostSoftmax (L : FVec Ideal S64x10 .f32) : FVec Ideal S64x10 .f32 :=
  Host.divf (F := Ideal) (hostShifted L)
    (hostColumn (Host.reduceAdd (F := Ideal) (hostShifted L) (constant (F := Ideal) Cert.ReferenceIdeal.S_ .f32 0x00000000#32) Cert.ReferenceIdeal.Gen.reducesTo_S64x10_S64_d1 Cert.ReferenceIdeal.Gen.h_S_))

/-! ## The body's steps, named -/

abbrev bodyLogits (x0 : FVec Ideal S64x64 .f32) (x1 : FVec Ideal S64x10 .f32) (x2 : FVec Ideal S1x10 .f32) : FVec Ideal S64x10 .f32 :=
  addf (matmul dot_S64x64_S64x10_S64x10_1_0_0_1_n_n none (truncf .bf16 (shapeCast S64x64 x0 shapeCasts_S64x64_S64x64) bitsLt_bf16_f32)
      (truncf .bf16 x1 bitsLt_bf16_f32) (constant S64x10 .f32 0x00000000#32))
    (broadcastTo S64x10 (shapeCast S1x10 x2 shapeCasts_S1x10_S1x10) broadcasts_S1x10_S64x10)

abbrev bodyRowMax (L : FVec Ideal S64x10 .f32) : FVec Ideal S64 .f32 :=
  maximumf (broadcast S64 (Scalar.ofBits (F := Ideal) .f32 0xFF800000#32))
    (multiReduction .maximumf [1] S64 L 0xFF800000#32 reduces_S64x10_S64 (.inl rfl) rfl)

abbrev bodyColumn (M : FVec Ideal S64 .f32) : FVec Ideal S64x10 .f32 :=
  broadcastTo S64x10 (shapeCast S64x1 M shapeCasts_S64_S64x1) broadcasts_S64x1_S64x10

abbrev bodyShifted (L : FVec Ideal S64x10 .f32) : FVec Ideal S64x10 .f32 :=
  exp (subf L (bodyColumn (bodyRowMax L)))

abbrev bodySoftmax (L : FVec Ideal S64x10 .f32) : FVec Ideal S64x10 .f32 :=
  divf (bodyShifted L) (bodyColumn (multiReduction .add [1] S64 (bodyShifted L) 0x00000000#32 reduces_S64x10_S64 (.inl rfl) rfl))

/-- The body's stored value is the softmax of its logits. -/
theorem payload_eq (x0 : FVec Ideal S64x64 .f32) (x1 : FVec Ideal S64x10 .f32) (x2 : FVec Ideal S1x10 .f32) :
    k6_pay1 (F := Ideal) x0 x1 x2 = bodySoftmax (bodyLogits x0 x1 x2) := rfl

/-! ## Step by step, the body's value is the host's -/

/-- The logits: both products are `∑ k, pooled (p, k) · Wl (k, q)`, both bias terms read `bl` at column `q`. -/
theorem logits_eq (x0 : FVec Ideal S64x64 .f32) (x1 : FVec Ideal S64x10 .f32) (x2 : FVec Ideal S1x10 .f32) :
    bodyLogits x0 x1 x2 = hostLogits x0 x1 x2 := by
  funext j
  obtain ⟨p, q, rfl⟩ : ∃ (p : Fin 64) (q : Fin 10), j = ix2 p q := ⟨j 0, j 1, eq_ix2 j⟩
  show FloatOps.addf (matmul dot_S64x64_S64x10_S64x10_1_0_0_1_n_n none (truncf .bf16 (shapeCast S64x64 x0 shapeCasts_S64x64_S64x64) bitsLt_bf16_f32)
        (truncf .bf16 x1 bitsLt_bf16_f32) (constant S64x10 .f32 0x00000000#32) (ix2 p q))
      (broadcastTo S64x10 (shapeCast S1x10 x2 shapeCasts_S1x10_S1x10) broadcasts_S1x10_S64x10 (ix2 p q))
    = FloatOps.addf (Host.dotGeneral (F := Ideal) Cert.ReferenceIdeal.dot_S64x64_S64x10_S64x10_1_0_0_1_n_n none x0 x1 (ix2 p q))
      (broadcastInDim Cert.ReferenceIdeal.S64x10 ![0, 1] Cert.ReferenceIdeal.Gen.bcast_S1x10_S64x10_0_1 x2 (ix2 p q))
  have h1 : matmul dot_S64x64_S64x10_S64x10_1_0_0_1_n_n none (truncf .bf16 (shapeCast S64x64 x0 shapeCasts_S64x64_S64x64) bitsLt_bf16_f32)
        (truncf .bf16 x1 bitsLt_bf16_f32) (constant S64x10 .f32 0x00000000#32) (ix2 p q) = ∑ k : Fin 64, x0 (ix2 p k) * x1 (ix2 k q) := by
    rw [shapeCast_self]
    exact RowOps.matmul_zero_plain_apply _ ⟨_, rfl⟩ none _ _ p q
  have h2 : Host.dotGeneral (F := Ideal) Cert.ReferenceIdeal.dot_S64x64_S64x10_S64x10_1_0_0_1_n_n none x0 x1 (ix2 p q) = ∑ k : Fin 64, x0 (ix2 p k) * x1 (ix2 k q) := by
    simp only [Host.dotGeneral]
    exact RowOps.dotGeneral_plain_apply Cert.ReferenceIdeal.dot_S64x64_S64x10_S64x10_1_0_0_1_n_n ⟨_, rfl⟩ _ _ x0 x1 p q
  have h3 : broadcastTo S64x10 (shapeCast S1x10 x2 shapeCasts_S1x10_S1x10) broadcasts_S1x10_S64x10 (ix2 p q) = x2 (ix2 (0 : Fin 1) q) := by
    rw [shapeCast_self]
    exact broadcastTo_apply x2 broadcasts_S1x10_S64x10 (ix2 p q) (ix2 (0 : Fin 1) q) (fun ax => by
      match ax with
      | ⟨0, _⟩ => show 0 = if (1 : Nat) = 1 then 0 else _; rw [if_pos rfl]
      | ⟨1, _⟩ => show q.val = if (10 : Nat) = 1 then 0 else q.val; rw [if_neg (by decide)])
  have h4 : broadcastInDim Cert.ReferenceIdeal.S64x10 ![0, 1] Cert.ReferenceIdeal.Gen.bcast_S1x10_S64x10_0_1 x2 (ix2 p q) = x2 (ix2 (0 : Fin 1) q) :=
    broadcastInDim_apply ![0, 1] Cert.ReferenceIdeal.Gen.bcast_S1x10_S64x10_0_1 x2 (ix2 p q) (ix2 (0 : Fin 1) q) (fun ax => by
      match ax with
      | ⟨0, _⟩ => show 0 = if (1 : Nat) = 1 then 0 else p.val; rw [if_pos rfl]
      | ⟨1, _⟩ => show q.val = if (10 : Nat) = 1 then 0 else q.val; rw [if_neg (by decide)])
  rw [h1, h2, h3, h4]

/-- The coordinate put back into a reduced row index: row `p` with column `k`. -/
theorem lift_row (h : S64x10.Reduces [1] S64) (p : Fin 64) (k : Fin (S64x10.size 1)) :
    h.lift (ix1 p) k = ix2 p (⟨k.val, k.isLt⟩ : Fin 10) := by
  funext c; apply Fin.ext
  fin_cases c <;> rfl

/-- The row maxima: both reductions are the fold of `max` from -∞ over the row. -/
theorem rowMax_eq (L : FVec Ideal S64x10 .f32) : bodyRowMax L = hostRowMax L := by
  funext j
  show FloatOps.maximumf (Scalar.ofBits (F := Ideal) .f32 0xFF800000#32)
      (multiReduction .maximumf [1] S64 L 0xFF800000#32 reduces_S64x10_S64 (.inl rfl) rfl j)
    = FloatOps.maximumf (broadcastInDim Cert.ReferenceIdeal.S64 ![] Cert.ReferenceIdeal.Gen.bcast_S_S64 (constant (F := Ideal) Cert.ReferenceIdeal.S_ .f32 0xFF800000#32) j)
      (Host.reduce FloatOps.maximumf L (constant (F := Ideal) Cert.ReferenceIdeal.S_ .f32 0xFF800000#32) Cert.ReferenceIdeal.Gen.reducesTo_S64x10_S64_d1 Cert.ReferenceIdeal.Gen.h_S_ j)
  refine (congrArg (FloatOps.maximumf (Scalar.ofBits (F := Ideal) .f32 0xFF800000#32))
    (Ideal.multiReduction_maximumf_single L 0xFF800000#32 reduces_S64x10_S64 (.inl rfl) rfl j)).trans ?_
  refine Eq.symm ((congrArg₂ FloatOps.maximumf (RowOps.broadcastInDim_scalar_apply Cert.ReferenceIdeal.Gen.bcast_S_S64 _ j)
    (Host.reduce_eq_fold_single FloatOps.maximumf L _ Cert.ReferenceIdeal.Gen.reducesTo_S64x10_S64_d1 reduces_S64x10_S64 Cert.ReferenceIdeal.Gen.h_S_ j)).trans ?_)
  rfl

/-- A per-row value along its row: both spellings read the value of row `p`. -/
theorem column_eq (M : FVec Ideal S64 .f32) : bodyColumn M = hostColumn M := by
  funext j
  obtain ⟨p, q, rfl⟩ : ∃ (p : Fin 64) (q : Fin 10), j = ix2 p q := ⟨j 0, j 1, eq_ix2 j⟩
  show broadcastTo S64x10 (shapeCast S64x1 M shapeCasts_S64_S64x1) broadcasts_S64x1_S64x10 (ix2 p q)
    = broadcastInDim Cert.ReferenceIdeal.S64x10 ![0, 1] Cert.ReferenceIdeal.Gen.bcast_S64x1_S64x10_0_1 (broadcastInDim Cert.ReferenceIdeal.S64x1 ![0] Cert.ReferenceIdeal.Gen.bcast_S64_S64x1_0 M) (ix2 p q)
  rw [broadcastTo_a1_ab_apply, shapeCast_a_a1_apply,
    broadcastInDim_apply ![0, 1] Cert.ReferenceIdeal.Gen.bcast_S64x1_S64x10_0_1 _ (ix2 p q) (ix2 p (0 : Fin 1)) (fun ax => by
      match ax with
      | ⟨0, _⟩ => show p.val = if (64 : Nat) = 1 then 0 else p.val; rw [if_neg (by decide)]
      | ⟨1, _⟩ => show 0 = if (1 : Nat) = 1 then 0 else q.val; rw [if_pos rfl]),
    broadcastInDim_apply ![0] Cert.ReferenceIdeal.Gen.bcast_S64_S64x1_0 M (ix2 p (0 : Fin 1)) (ix1 p) (fun ax => by
      match ax with
      | ⟨0, _⟩ => show p.val = if (64 : Nat) = 1 then 0 else p.val; rw [if_neg (by decide)])]

/-- The row sums: the body's reduction is the plain sum over the row, the host's the same sum from a zero initial value. -/
theorem rowSum_eq (E : FVec Ideal S64x10 .f32) :
    multiReduction .add [1] S64 E 0x00000000#32 reduces_S64x10_S64 (.inl rfl) rfl
      = Host.reduceAdd (F := Ideal) E (constant (F := Ideal) Cert.ReferenceIdeal.S_ .f32 0x00000000#32) Cert.ReferenceIdeal.Gen.reducesTo_S64x10_S64_d1 Cert.ReferenceIdeal.Gen.h_S_ := by
  funext j
  refine (Ideal.multiReduction_add_single E 0x00000000#32 reduces_S64x10_S64 (.inl rfl) rfl j).trans ?_
  refine Eq.symm ?_
  show Ideal.hostReduceAdd Cert.ReferenceIdeal.Gen.reducesTo_S64x10_S64_d1 E (Ideal.ofBits .f32 0x00000000#32) j = _
  rw [Ideal.hostReduceAdd_single Cert.ReferenceIdeal.Gen.reducesTo_S64x10_S64_d1 reduces_S64x10_S64, Ideal.ofBits_zero_f32, zero_add]

/-- The shifted exponentials agree (the two exponentials are one function on extended reals). -/
theorem shifted_eq (L : FVec Ideal S64x10 .f32) : bodyShifted L = hostShifted L := by
  show exp (subf L (bodyColumn (bodyRowMax L))) = Host.exp (F := Ideal) (subf L (hostColumn (hostRowMax L)))
  rw [rowMax_eq, column_eq]
  rfl

/-- The softmax agrees (the two quotients are one function on extended reals). -/
theorem softmax_eq (L : FVec Ideal S64x10 .f32) : bodySoftmax L = hostSoftmax L := by
  show divf (bodyShifted L) (bodyColumn (multiReduction .add [1] S64 (bodyShifted L) 0x00000000#32 reduces_S64x10_S64 (.inl rfl) rfl))
    = Host.divf (F := Ideal) (hostShifted L) (hostColumn (Host.reduceAdd (F := Ideal) (hostShifted L) (constant (F := Ideal) Cert.ReferenceIdeal.S_ .f32 0x00000000#32) Cert.ReferenceIdeal.Gen.reducesTo_S64x10_S64_d1 Cert.ReferenceIdeal.Gen.h_S_))
  rw [shifted_eq, rowSum_eq, column_eq]
  rfl

/-- The body's stored value is the host's softmax of the host's logits of the three loaded arrays. -/
theorem payload_host (x0 : FVec Ideal S64x64 .f32) (x1 : FVec Ideal S64x10 .f32) (x2 : FVec Ideal S1x10 .f32) :
    k6_pay1 (F := Ideal) x0 x1 x2 = hostSoftmax (hostLogits x0 x1 x2) := by
  rw [payload_eq, logits_eq, softmax_eq]

/-! ## The region -/

section
variable (V : (c : Dev nD) → (b : Ref sig .tc) → Buf (Elt Ideal) ((c : Thread nD τ).loc b))

/-- Every window of the one grid point is block (0, 0): its whole array. -/
theorem block_index : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the one point writes back is the host's expression of the three arrays as the region finds them. -/
theorem flushed_eq (c : Dev nD) (t : Fin cfg6.N) :
    (dat6 V c).flushed 3 t = ((cfg6.win 3).blk t).view.read (Elt Ideal)
      (hostSoftmax (hostLogits (V c main_v89) (V c main_arg9) (V c main_v90))) := by
  show (cfg6.win 3).cut (grid6.coords t) ((dat6 V c).after 3 t) = _
  rw [after6_3]
  unfold out6_3
  rw [View.canon_unit_zero origin2]
  simp only [View.ld_unit_zero (S := S64x64) origin2, View.ld_unit_zero (S := S64x10) origin2, View.ld_unit_zero (S := S1x10) origin2]
  obtain ⟨e0, e1, e2, e3, e4, e5, e6, e7⟩ := block_index t
  rw [payload_host]
  have hb0 : iblk6 V c 0 t = V c main_v89 := funext fun y => by
    show V c main_v89 (((cfg6.win 0).blk t).view.emb y) = V c main_v89 y
    refine congrArg (V c main_v89) (funext fun a => Fin.ext ?_)
    match a with
    | ⟨0, _⟩ => show win6_0.index t (0 : Fin 2) * 64 + 1 * (y 0).val = (y 0).val; omega
    | ⟨1, _⟩ => show win6_0.index t (1 : Fin 2) * 64 + 1 * (y 1).val = (y 1).val; omega
  have hb1 : iblk6 V c 1 t = V c main_arg9 := funext fun y => by
    show V c main_arg9 (((cfg6.win 1).blk t).view.emb y) = V c main_arg9 y
    refine congrArg (V c main_arg9) (funext fun a => Fin.ext ?_)
    match a with
    | ⟨0, _⟩ => show win6_1.index t (0 : Fin 2) * 64 + 1 * (y 0).val = (y 0).val; omega
    | ⟨1, _⟩ => show win6_1.index t (1 : Fin 2) * 10 + 1 * (y 1).val = (y 1).val; omega
  have hb2 : iblk6 V c 2 t = V c main_v90 := funext fun y => by
    show V c main_v90 (((cfg6.win 2).blk t).view.emb y) = V c main_v90 y
    refine congrArg (V c main_v90) (funext fun a => Fin.ext ?_)
    match a with
    | ⟨0, _⟩ => show win6_2.index t (0 : Fin 2) * 1 + 1 * (y 0).val = (y 0).val; omega
    | ⟨1, _⟩ => show win6_2.index t (1 : Fin 2) * 10 + 1 * (y 1).val = (y 1).val; omega
  rw [hb0, hb1, hb2]
  funext j
  show _ = hostSoftmax (hostLogits (V c main_v89) (V c main_arg9) (V c main_v90)) (((cfg6.win 3).blk t).view.emb j)
  refine congrArg (hostSoftmax (hostLogits (V c main_v89) (V c main_arg9) (V c main_v90))) (funext fun a => Fin.ext ?_)
  match a with
  | ⟨0, _⟩ => show (j 0).val = win6_3.index t (0 : Fin 2) * 64 + 1 * (j 0).val; omega
  | ⟨1, _⟩ => show (j 1).val = win6_3.index t (1 : Fin 2) * 10 + 1 * (j 1).val; omega

/-- An index of the output array is in the point's block iff each coordinate is in the block's range on its axis. -/
theorem mem_block (t : Fin cfg6.N) (i : S64x10.Idx) :
    i ∈ ((cfg6.win 3).blk t).view.set ↔ ∀ a : Fin 2, win6_3.index t a * S64x10.size a ≤ (i a).val ∧ (i a).val < win6_3.index t a * S64x10.size a + S64x10.size a := by
  show i ∈ ((View.whole (Pipeline.arrRef spec6 3)).slice (win6_3.rect t)).set ↔ _
  rw [View.set_slice_whole, Rect.mem_set_unit]
  exact Iff.rfl

/-- The one block is the whole output. -/
theorem covered (i : S64x10.Idx) :
    ∃ t : Fin cfg6.N, (cfg6.win 3).flush t = true ∧ i ∈ ((cfg6.win 3).blk t).view.set := by
  have hi0 : (i 0).val < 64 := (i 0).isLt
  have hi1 : (i 1).val < 10 := (i 1).isLt
  refine ⟨t6_0, flush6_3 _, ?_⟩
  rw [mem_block]
  obtain ⟨e0, e1, e2, e3, e4, e5, e6, e7⟩ := block_index t6_0
  intro a
  match a with
  | ⟨0, _⟩ => show win6_3.index t6_0 (0 : Fin 2) * 64 ≤ (i 0).val ∧ (i 0).val < win6_3.index t6_0 (0 : Fin 2) * 64 + 64; omega
  | ⟨1, _⟩ => show win6_3.index t6_0 (1 : Fin 2) * 10 ≤ (i 1).val ∧ (i 1).val < win6_3.index t6_0 (1 : Fin 2) * 10 + 10; omega

/-- The output array after the region: the host's softmax of the host's logits of the three input arrays. -/
theorem array_eq (c : Dev nD) :
    (dat6 V c).arrAt 3 cfg6.N = hostSoftmax (hostLogits (V c main_v89) (V c main_arg9) (V c main_v90)) :=
  (dat6 V c).arrAt_eq_of_cover 3 _ (fun t _ => flushed_eq V c t) covered

end

end Cert.KernelIdeal.Head

end
-- ==== Proof.Stages.lean ====
/-
  The steps of the graph network, as whole-array functions in the host program's own operations.

  From the edge list: the source and destination node of every edge with one self-loop per node appended; a node index
  wrapped when negative (the gather's convention); the in-degree of every node as a scatter of ones; its inverse square
  root where the degree is positive and zero elsewhere; the symmetric edge weight, the product of that at the edge's two
  ends. A layer's aggregation gathers the projected features at every edge's source, scales each row by the edge
  weight, and scatters the rows onto the destinations. The pooling sums the node features per graph and divides by the
  graph's node count, at least one. Both programs are compositions of exactly these steps; they differ in how a layer's
  projection, its bias-and-relu, and the classifier head are computed, which the region modules settle.

  A bias vector is used as a one-row matrix; the kernel's host code writes that as a cast of the vector, the reference as
  a broadcast. Both read entry `q` of the vector at `(0, q)`.
-/
import proofs.«101654_j53386443489830_1_alg».proof.Proof.Gen.ReferenceIdeal
import proofs.«101654_j53386443489830_1_alg».proof.Proof.Gen.KernelIdeal
import Idealize.ShloMosaic.Lib.Pipeline.Value
import Idealize.ShloMosaic.Lib.ValueIdx
import Idealize.ShloMosaic.Lib.ValueLayout

set_option maxRecDepth 16384

noncomputable section

namespace Cert.Stages

open Cert.ReferenceIdeal Cert.ReferenceIdeal.Gen Idealize.ShloMosaic Idealize.ShloMosaic.ValueIdx

/-- The source node of every edge, the nodes themselves appended (one self-loop each). -/
abbrev srcOf (ei : (⟨S2x1600000, .i32⟩ : BufTy).Contents (Elt Ideal)) : (⟨S1700000, .i32⟩ : BufTy).Contents (Elt Ideal) :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)

/-- The destination node of every edge, the nodes themselves appended. -/
abbrev dstOf (ei : (⟨S2x1600000, .i32⟩ : BufTy).Contents (Elt Ideal)) : (⟨S1700000, .i32⟩ : BufTy).Contents (Elt Ideal) :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)

/-- The inverse square root of every node's in-degree (counted with the self-loop), zero where the degree is not positive. -/
abbrev degInv (dst : (⟨S1700000, .i32⟩ : BufTy).Contents (Elt Ideal)) : FVec Ideal S100000 .f32 :=
  (select (cmpf (F := Ideal) .ogt (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))) (broadcastInDim S100000 ![] bcast_S_S100000 (constant (F := Ideal) S_ .f32 0x00000000#32))) (Host.rsqrt (F := Ideal) (Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32)))) (broadcastInDim S100000 ![] bcast_S_S100000 (id (constant (F := Ideal) S_ .f32 0x00000000#32))))

/-- The symmetric weight of every edge: the inverse-root degree at its source times that at its destination. -/
abbrev normOf (src dst : (⟨S1700000, .i32⟩ : BufTy).Contents (Elt Ideal)) : FVec Ideal S1700000 .f32 :=
  (mulf (F := Ideal) (Host.gather gather_S100000_S1700000x1_S1700000_n_0_n_n_0_1_1 (degInv dst) (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) (Host.gather gather_S100000_S1700000x1_S1700000_n_0_n_n_0_1_1 (degInv dst) (broadcastInDim S1700000x1 ![0] bcast_S1700000_S1700000x1_0 (select (cmpi .slt dst (broadcastInDim S1700000 ![] bcast_S_S1700000 (constantI S_ 32 0#32))) (addi dst (broadcastInDim S1700000 ![] bcast_S_S1700000 (constantI S_ 32 100000#32))) dst))))

/-- A layer's aggregation of projected features `hw` over the edges: gather at the sources, scale by the edge weights,
    scatter onto the destinations. -/
abbrev aggregate (hw : FVec Ideal S100000x64 .f32) (src dst : (⟨S1700000, .i32⟩ : BufTy).Contents (Elt Ideal)) (nrm : FVec Ideal S1700000 .f32) :
    FVec Ideal S100000x64 .f32 :=
  (Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 dst) (mulf (F := Ideal) (Host.gather gather_S100000x64_S1700000x1_S1700000x64_1_0_n_n_0_1_164 hw (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) (broadcastInDim S1700000x64 ![0, 1] bcast_S1700000x1_S1700000x64_0_1 (broadcastInDim S1700000x1 ![0] bcast_S1700000_S1700000x1_0 nrm))))

/-- The mean of the node features over each graph: the per-graph sums over the per-graph node counts, at least one. -/
abbrev pooled (h : FVec Ideal S100000x64 .f32) (batch : (⟨S100000, .i32⟩ : BufTy).Contents (Elt Ideal)) : FVec Ideal S64x64 .f32 :=
  (Host.divf (F := Ideal) (Host.scatterAdd (F := Ideal) scatter_S64x64_S100000x1_S100000x64_1_0_0_1 (broadcastInDim S64x64 ![] bcast_S_S64x64 (constant (F := Ideal) S_ .f32 0x00000000#32)) (broadcastInDim S100000x1 ![0] bcast_S100000_S100000x1_0 batch) h) (broadcastInDim S64x64 ![0, 1] bcast_S64x1_S64x64_0_1 (broadcastInDim S64x1 ![0] bcast_S64_S64x1_0 (maximumf (F := Ideal) (Host.scatterAdd (F := Ideal) scatter_S64_S100000x1_S100000_n_0_0_1 (broadcastInDim S64 ![] bcast_S_S64 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S64 ![] bcast_S_S64 (constant (F := Ideal) S_ .f32 0x3F800000#32))))))

/-! ## A vector as a one-row matrix -/

/-- The 64-entry bias vector as `[1, 64]`: the cast and the broadcast along axis 1 are one array. -/
theorem row64_eq (b : FVec Ideal S64 .f32) :
    shapeCast S1x64 b Cert.KernelIdeal.Gen.shapeCasts_S64_S1x64 = broadcastInDim S1x64 ![1] bcast_S64_S1x64_1 b := by
  funext j
  obtain ⟨u, q, rfl⟩ : ∃ (u : Fin 1) (q : Fin 64), j = ix2 u q := ⟨j 0, j 1, eq_ix2 j⟩
  have hu : u.val = 0 := by omega
  rw [shapeCast_apply b Cert.KernelIdeal.Gen.shapeCasts_S64_S1x64 (ix2 u q) (ix1 q) (by
      rw [Shape.rowMajor_val_two, Shape.rowMajor_val_one]
      show q.val = u.val * 64 + q.val
      omega),
    broadcastInDim_apply ![1] bcast_S64_S1x64_1 b (ix2 u q) (ix1 q) (fun ax => by
      match ax with
      | ⟨0, _⟩ => show q.val = if (64 : Nat) = 1 then 0 else q.val; rw [if_neg (by decide)])]

/-- The 10-entry bias vector as `[1, 10]`: the cast and the broadcast along axis 1 are one array. -/
theorem row10_eq (b : FVec Ideal S10 .f32) :
    shapeCast S1x10 b Cert.KernelIdeal.Gen.shapeCasts_S10_S1x10 = broadcastInDim S1x10 ![1] bcast_S10_S1x10_1 b := by
  funext j
  obtain ⟨u, q, rfl⟩ : ∃ (u : Fin 1) (q : Fin 10), j = ix2 u q := ⟨j 0, j 1, eq_ix2 j⟩
  have hu : u.val = 0 := by omega
  rw [shapeCast_apply b Cert.KernelIdeal.Gen.shapeCasts_S10_S1x10 (ix2 u q) (ix1 q) (by
      rw [Shape.rowMajor_val_two, Shape.rowMajor_val_one]
      show q.val = u.val * 10 + q.val
      omega),
    broadcastInDim_apply ![1] bcast_S10_S1x10_1 b (ix2 u q) (ix1 q) (fun ax => by
      match ax with
      | ⟨0, _⟩ => show q.val = if (10 : Nat) = 1 then 0 else q.val; rw [if_neg (by decide)])]

end Cert.Stages

end
-- ==== Proof.Network.lean ====
/-
  The whole network as one function of the eleven argument arrays, composed of the steps of the stage and region modules:
  three layers (project, aggregate over the edges with the symmetric weights, add the bias row, relu), the mean over
  each graph, the classifier's logits and their row softmax — every step in the host program's own operations.
-/
import proofs.«101654_j53386443489830_1_alg».proof.Proof.Stages
import proofs.«101654_j53386443489830_1_alg».proof.Proof.Dense0
import proofs.«101654_j53386443489830_1_alg».proof.Proof.Dense2
import proofs.«101654_j53386443489830_1_alg».proof.Proof.Act1
import proofs.«101654_j53386443489830_1_alg».proof.Proof.Head

set_option maxRecDepth 16384

noncomputable section

namespace Cert.Network

open Cert.ReferenceIdeal Cert.ReferenceIdeal.Gen Idealize.ShloMosaic

/-- A bias vector as the one-row matrix the reference broadcasts it to. -/
abbrev biasRow (b : FVec Ideal S64 .f32) : FVec Ideal S1x64 .f32 := broadcastInDim S1x64 ![1] bcast_S64_S1x64_1 b

/-- One layer after its projection `hw`: aggregate over the edges, add the bias, relu. -/
abbrev layer (hw : FVec Ideal S100000x64 .f32) (ei : (⟨S2x1600000, .i32⟩ : BufTy).Contents (Elt Ideal)) (b : FVec Ideal S64 .f32) : FVec Ideal S100000x64 .f32 :=
  Cert.KernelIdeal.Act1.activation
    (Cert.Stages.aggregate hw (Cert.Stages.srcOf ei) (Cert.Stages.dstOf ei) (Cert.Stages.normOf (Cert.Stages.srcOf ei) (Cert.Stages.dstOf ei)))
    (biasRow b)

/-- The class probabilities of every graph. -/
abbrev out (x : FVec Ideal S100000x128 .f32) (ei : (⟨S2x1600000, .i32⟩ : BufTy).Contents (Elt Ideal)) (batch : (⟨S100000, .i32⟩ : BufTy).Contents (Elt Ideal))
    (W1 : FVec Ideal S128x64 .f32) (b1 : FVec Ideal S64 .f32) (W2 : FVec Ideal S64x64 .f32) (b2 : FVec Ideal S64 .f32)
    (W3 : FVec Ideal S64x64 .f32) (b3 : FVec Ideal S64 .f32) (Wl : FVec Ideal S64x10 .f32) (bl : FVec Ideal S10 .f32) : FVec Ideal S64x10 .f32 :=
  Cert.KernelIdeal.Head.hostSoftmax (Cert.KernelIdeal.Head.hostLogits
    (Cert.Stages.pooled
      (layer (Cert.KernelIdeal.Dense2.product
        (layer (Cert.KernelIdeal.Dense2.product
          (layer (Cert.KernelIdeal.Dense0.product x W1) ei b1) W2) ei b2) W3) ei b3) batch)
    Wl (broadcastInDim S1x10 ![1] bcast_S10_S1x10_1 bl))

end Cert.Network

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.Chain.lean ====
/-
  The idealized kernel's last segment boundary holds, at the result, the network of the argument arrays.

  Read from the launch forward. The first three stretches compute, from the edge list alone, the edge sources, the edge
  destinations and the symmetric edge weights; these three arrays are never written again. Region 0 leaves `x · W1`. The
  next stretch aggregates it over the edges and lays the bias out as a row; region 1 adds the bias and applies the relu;
  region 2 projects by `W2`; and so on for the second and third layers. The last stretch pools the node features per
  graph and lays out the classifier's bias; region 6 leaves the softmax of the logits. At every step the arrays a
  segment reads are the ones earlier segments left (a stretch or region changes only what it writes), so the contents
  at the result are the composition of the steps — the function `Network.out` of the eleven arguments.
-/
import proofs.«101654_j53386443489830_1_alg».proof.Proof.Keep
import proofs.«101654_j53386443489830_1_alg».proof.Proof.Dense0
import proofs.«101654_j53386443489830_1_alg».proof.Proof.Dense2
import proofs.«101654_j53386443489830_1_alg».proof.Proof.Dense4
import proofs.«101654_j53386443489830_1_alg».proof.Proof.Act1
import proofs.«101654_j53386443489830_1_alg».proof.Proof.Act3
import proofs.«101654_j53386443489830_1_alg».proof.Proof.Act5
import proofs.«101654_j53386443489830_1_alg».proof.Proof.Head
import proofs.«101654_j53386443489830_1_alg».proof.Proof.Stages
import proofs.«101654_j53386443489830_1_alg».proof.Proof.Network
import proofs.«101654_j53386443489830_1_alg».proof.Proof.LibTypedRefs
import Idealize.ShloMosaic.Lib.StableHlo.Run

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## From the edge list: sources, destinations, weights -/

/-- After the first three stretches the edge sources are the first row of the edge list with the nodes appended. -/
theorem src3 : W3 (F := Ideal) m ρ c (Proc.devRef .tc main_v3) = Cert.Stages.srcOf (m ((c : Thread nD τ).loc main_arg1)) := by
  show StableHlo.after hostOps0_2 (StableHlo.after hostOps0_1 (StableHlo.after hostOps0 (W0 (F := Ideal) m ρ c))) (Proc.devRef .tc main_v3) = _
  simp only [hostOps0, hostOps0_1, hostOps0_2]
  after_results_simp
  rfl

/-- The edge destinations: the second row of the edge list with the nodes appended. -/
theorem dst3 : W3 (F := Ideal) m ρ c (Proc.devRef .tc main_v6) = Cert.Stages.dstOf (m ((c : Thread nD τ).loc main_arg1)) := by
  show StableHlo.after hostOps0_2 (StableHlo.after hostOps0_1 (StableHlo.after hostOps0 (W0 (F := Ideal) m ρ c))) (Proc.devRef .tc main_v6) = _
  simp only [hostOps0, hostOps0_1, hostOps0_2]
  after_results_simp
  rfl

/-- The symmetric edge weights, from whatever contents the first stretch starts at: a function of the edge list alone.
    (The selection between the inverse root and zero is a called function; its operands pass through typed
    references, which at a literal reference of the buffer's own type are the identity.) -/
theorem nrm_read (Win : Valuation τ sig (Elt Ideal)) :
    StableHlo.after hostOps0_2 (StableHlo.after hostOps0_1 (StableHlo.after hostOps0 Win)) (Proc.devRef .tc main_v29)
      = Cert.Stages.normOf (Cert.Stages.srcOf (Win (Proc.devRef .tc main_arg1))) (Cert.Stages.dstOf (Win (Proc.devRef .tc main_arg1))) := by
  simp only [hostOps0, hostOps0_1, hostOps0_2]
  after_results_simp
  repeat rw [TRef.toBuf_self]
  repeat rw [TRef.ofBuf_self]
  rfl

/-- The symmetric edge weights. -/
theorem nrm3 : W3 (F := Ideal) m ρ c (Proc.devRef .tc main_v29) = Cert.Stages.normOf (Cert.Stages.srcOf (m ((c : Thread nD τ).loc main_arg1))) (Cert.Stages.dstOf (m ((c : Thread nD τ).loc main_arg1))) :=
  nrm_read (W0 (F := Ideal) m ρ c)

/-! ## The first layer -/

/-- Region 0 leaves the first projection. -/
theorem proj1 : W4 (F := Ideal) m ρ c (Proc.devRef .tc main_v30) = (Dense0.product (m ((c : Thread nD τ).loc main_arg0)) (m ((c : Thread nD τ).loc main_arg3))) :=
  (W4_arr m ρ c 2).trans ((Dense0.array_eq (V3 m ρ) c).trans (by
    rw [show V3 (F := Ideal) m ρ c main_arg0 = (m ((c : Thread nD τ).loc main_arg0)) from keep_main_arg0_W3 m ρ c,
      show V3 (F := Ideal) m ρ c main_arg3 = (m ((c : Thread nD τ).loc main_arg3)) from keep_main_arg3_W3 m ρ c]))

/-- The stretch's aggregation, from whatever contents it starts at: gathered at the sources, weighted, scattered onto the
    destinations. -/
theorem agg1_read (Win : Valuation τ sig (Elt Ideal)) :
    StableHlo.after hostOps1 Win (Proc.devRef .tc main_v43)
      = Cert.Stages.aggregate (Win (Proc.devRef .tc main_v30)) (Win (Proc.devRef .tc main_v3)) (Win (Proc.devRef .tc main_v6)) (Win (Proc.devRef .tc main_v29)) := by
  simp only [hostOps1]
  after_results_simp
  rfl

/-- The aggregation of this layer's projection. -/
theorem agg1 : V5 (F := Ideal) m ρ c main_v43 = Cert.Stages.aggregate (Dense0.product (m ((c : Thread nD τ).loc main_arg0)) (m ((c : Thread nD τ).loc main_arg3))) (Cert.Stages.srcOf (m ((c : Thread nD τ).loc main_arg1))) (Cert.Stages.dstOf (m ((c : Thread nD τ).loc main_arg1))) (Cert.Stages.normOf (Cert.Stages.srcOf (m ((c : Thread nD τ).loc main_arg1))) (Cert.Stages.dstOf (m ((c : Thread nD τ).loc main_arg1)))) :=
  (agg1_read (W4 (F := Ideal) m ρ c)).trans (by
    rw [proj1 m ρ c, keep_main_v3_W4 m ρ c, src3 m ρ c, keep_main_v6_W4 m ρ c, dst3 m ρ c, keep_main_v29_W4 m ρ c, nrm3 m ρ c])

/-- The bias vector as a one-row matrix, read off the stretch. -/
theorem row1 : V5 (F := Ideal) m ρ c main_v44 = (Cert.Network.biasRow (m ((c : Thread nD τ).loc main_arg4))) := by
  show StableHlo.after hostOps1 (W4 (F := Ideal) m ρ c) (Proc.devRef .tc main_v44) = _
  simp only [hostOps1]
  after_results
  rw [keep_main_arg4_W4 m ρ c]
  exact Cert.Stages.row64_eq _

/-- Region 1 leaves the first layer's output. -/
theorem act1 : W6 (F := Ideal) m ρ c (Proc.devRef .tc main_v45) = (Cert.Network.layer (Dense0.product (m ((c : Thread nD τ).loc main_arg0)) (m ((c : Thread nD τ).loc main_arg3))) (m ((c : Thread nD τ).loc main_arg1)) (m ((c : Thread nD τ).loc main_arg4))) :=
  (W6_arr m ρ c 2).trans ((Act1.array_eq (V5 m ρ) c).trans (by rw [agg1 m ρ c, row1 m ρ c]))

/-! ## The second layer -/

/-- Region 2 leaves the second projection. -/
theorem proj2 : W7 (F := Ideal) m ρ c (Proc.devRef .tc main_v46) = (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) :=
  (W7_arr m ρ c 2).trans ((Dense2.array_eq (V6 m ρ) c).trans (by
    rw [show V6 (F := Ideal) m ρ c main_v45 = (Cert.Network.layer (Dense0.product (m ((c : Thread nD τ).loc main_arg0)) (m ((c : Thread nD τ).loc main_arg3))) (m ((c : Thread nD τ).loc main_arg1)) (m ((c : Thread nD τ).loc main_arg4))) from act1 m ρ c,
      show V6 (F := Ideal) m ρ c main_arg5 = (m ((c : Thread nD τ).loc main_arg5)) from keep_main_arg5_W6 m ρ c]))

/-- The stretch's aggregation, from whatever contents it starts at: gathered at the sources, weighted, scattered onto the
    destinations. -/
theorem agg2_read (Win : Valuation τ sig (Elt Ideal)) :
    StableHlo.after hostOps3 Win (Proc.devRef .tc main_v59)
      = Cert.Stages.aggregate (Win (Proc.devRef .tc main_v46)) (Win (Proc.devRef .tc main_v3)) (Win (Proc.devRef .tc main_v6)) (Win (Proc.devRef .tc main_v29)) := by
  simp only [hostOps3]
  after_results_simp
  rfl

/-- The aggregation of this layer's projection. -/
theorem agg2 : V8 (F := Ideal) m ρ c main_v59 = Cert.Stages.aggregate (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (Cert.Stages.srcOf (m ((c : Thread nD τ).loc main_arg1))) (Cert.Stages.dstOf (m ((c : Thread nD τ).loc main_arg1))) (Cert.Stages.normOf (Cert.Stages.srcOf (m ((c : Thread nD τ).loc main_arg1))) (Cert.Stages.dstOf (m ((c : Thread nD τ).loc main_arg1)))) :=
  (agg2_read (W7 (F := Ideal) m ρ c)).trans (by
    rw [proj2 m ρ c, keep_main_v3_W7 m ρ c, src3 m ρ c, keep_main_v6_W7 m ρ c, dst3 m ρ c, keep_main_v29_W7 m ρ c, nrm3 m ρ c])

/-- The bias vector as a one-row matrix, read off the stretch. -/
theorem row2 : V8 (F := Ideal) m ρ c main_v60 = (Cert.Network.biasRow (m ((c : Thread nD τ).loc main_arg6))) := by
  show StableHlo.after hostOps3 (W7 (F := Ideal) m ρ c) (Proc.devRef .tc main_v60) = _
  simp only [hostOps3]
  after_results
  rw [keep_main_arg6_W7 m ρ c]
  exact Cert.Stages.row64_eq _

/-- Region 3 leaves the second layer's output. -/
theorem act2 : W9 (F := Ideal) m ρ c (Proc.devRef .tc main_v61) = (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) :=
  (W9_arr m ρ c 2).trans ((Act3.array_eq (V8 m ρ) c).trans (by rw [agg2 m ρ c, row2 m ρ c]))

/-! ## The third layer -/

/-- Region 4 leaves the third projection. -/
theorem proj3 : W10 (F := Ideal) m ρ c (Proc.devRef .tc main_v62) = (Dense2.product (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) :=
  (W10_arr m ρ c 2).trans ((Dense4.array_eq (V9 m ρ) c).trans (by
    rw [show V9 (F := Ideal) m ρ c main_v61 = (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) from act2 m ρ c,
      show V9 (F := Ideal) m ρ c main_arg7 = (m ((c : Thread nD τ).loc main_arg7)) from keep_main_arg7_W9 m ρ c]))

/-- The stretch's aggregation, from whatever contents it starts at: gathered at the sources, weighted, scattered onto the
    destinations. -/
theorem agg3_read (Win : Valuation τ sig (Elt Ideal)) :
    StableHlo.after hostOps5 Win (Proc.devRef .tc main_v75)
      = Cert.Stages.aggregate (Win (Proc.devRef .tc main_v62)) (Win (Proc.devRef .tc main_v3)) (Win (Proc.devRef .tc main_v6)) (Win (Proc.devRef .tc main_v29)) := by
  simp only [hostOps5]
  after_results_simp
  rfl

/-- The aggregation of this layer's projection. -/
theorem agg3 : V11 (F := Ideal) m ρ c main_v75 = Cert.Stages.aggregate (Dense2.product (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (Cert.Stages.srcOf (m ((c : Thread nD τ).loc main_arg1))) (Cert.Stages.dstOf (m ((c : Thread nD τ).loc main_arg1))) (Cert.Stages.normOf (Cert.Stages.srcOf (m ((c : Thread nD τ).loc main_arg1))) (Cert.Stages.dstOf (m ((c : Thread nD τ).loc main_arg1)))) :=
  (agg3_read (W10 (F := Ideal) m ρ c)).trans (by
    rw [proj3 m ρ c, keep_main_v3_W10 m ρ c, src3 m ρ c, keep_main_v6_W10 m ρ c, dst3 m ρ c, keep_main_v29_W10 m ρ c, nrm3 m ρ c])

/-- The bias vector as a one-row matrix, read off the stretch. -/
theorem row3 : V11 (F := Ideal) m ρ c main_v76 = (Cert.Network.biasRow (m ((c : Thread nD τ).loc main_arg8))) := by
  show StableHlo.after hostOps5 (W10 (F := Ideal) m ρ c) (Proc.devRef .tc main_v76) = _
  simp only [hostOps5]
  after_results
  rw [keep_main_arg8_W10 m ρ c]
  exact Cert.Stages.row64_eq _

/-- Region 5 leaves the third layer's output. -/
theorem act3 : W12 (F := Ideal) m ρ c (Proc.devRef .tc main_v77) = (Cert.Network.layer (Dense2.product (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (m ((c : Thread nD τ).loc main_arg1)) (m ((c : Thread nD τ).loc main_arg8))) :=
  (W12_arr m ρ c 2).trans ((Act5.array_eq (V11 m ρ) c).trans (by rw [agg3 m ρ c, row3 m ρ c]))

/-! ## Pooling and the head -/

/-- The last stretch's pooling, from whatever contents it starts at. -/
theorem pool_read (Win : Valuation τ sig (Elt Ideal)) :
    StableHlo.after hostOps6 Win (Proc.devRef .tc main_v89) = Cert.Stages.pooled (Win (Proc.devRef .tc main_v77)) (Win (Proc.devRef .tc main_arg2)) := by
  simp only [hostOps6]
  after_results_simp
  rfl

/-- The last stretch leaves the per-graph means. -/
theorem pool : V13 (F := Ideal) m ρ c main_v89 = (Cert.Stages.pooled (Cert.Network.layer (Dense2.product (Cert.Network.layer (Dense2.product (Cert.Network.layer (Dense0.product (m ((c : Thread nD τ).loc main_arg0)) (m ((c : Thread nD τ).loc main_arg3))) (m ((c : Thread nD τ).loc main_arg1)) (m ((c : Thread nD τ).loc main_arg4))) (m ((c : Thread nD τ).loc main_arg5))) (m ((c : Thread nD τ).loc main_arg1)) (m ((c : Thread nD τ).loc main_arg6))) (m ((c : Thread nD τ).loc main_arg7))) (m ((c : Thread nD τ).loc main_arg1)) (m ((c : Thread nD τ).loc main_arg8))) (m ((c : Thread nD τ).loc main_arg2))) :=
  (pool_read (W12 (F := Ideal) m ρ c)).trans (by rw [act3 m ρ c, keep_main_arg2_W12 m ρ c])

/-- The classifier's bias as a one-row matrix. -/
theorem rowl : V13 (F := Ideal) m ρ c main_v90 = (broadcastInDim Cert.ReferenceIdeal.S1x10 ![1] Cert.ReferenceIdeal.Gen.bcast_S10_S1x10_1 (m ((c : Thread nD τ).loc main_arg10))) := by
  show StableHlo.after hostOps6 (W12 (F := Ideal) m ρ c) (Proc.devRef .tc main_v90) = _
  simp only [hostOps6]
  after_results
  rw [keep_main_arg10_W12 m ρ c]
  exact Cert.Stages.row10_eq _

/-- THE RESULT: the last boundary's contents at the result buffer are the network of the eleven argument arrays. -/
theorem result_eq : W14 (F := Ideal) m ρ c (Proc.devRef .tc main_v91)
    = Cert.Network.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W14_arr m ρ c 3).trans ((Head.array_eq (V13 m ρ) c).trans (by
    rw [pool m ρ c, show V13 (F := Ideal) m ρ c main_arg9 = (m ((c : Thread nD τ).loc main_arg9)) from keep_main_arg9_W13 m ρ c, rowl m ρ c]))

end Cert.KernelIdeal.Chain

end
-- ==== Proof.RefTerm.lean ====
/-
  The reference's result is the network of its argument arrays.

  The reference's run ends with its result buffer at the composed term of its 209 host operations. That term is a tree in
  which every shared intermediate is written out once per use: the three layers, each with its own copy of the degree
  normalisation computed from the same edge list, the pooling, and the softmax with the logits written four times.
  Naming the repeated parts — the edge sources and destinations, the symmetric weights, a layer, the pooling, the head —
  the tree is, node for node, `Network.out` of the eleven arguments, so the two are equal by unfolding the names.
-/
import proofs.«101654_j53386443489830_1_alg».proof.Proof.RefRun
import proofs.«101654_j53386443489830_1_alg».proof.Proof.Network

set_option maxRecDepth 65536

noncomputable section

namespace Cert.ReferenceIdeal.RefValue

open Cert.ReferenceIdeal Cert.ReferenceIdeal.Gen Idealize.ShloMosaic Idealize.ShloMosaic.TcCoe Idealize.SL.Sem

theorem result_eq (m : (ℓ : Loc nD τ sig) → Buf (Elt Ideal) ℓ) (c : Dev nD) :
    Cert.ReferenceIdeal.ValueP.res_main_v156 (F := Ideal) m c
      = Cert.Network.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v156
  rfl

end Cert.ReferenceIdeal.RefValue

end
-- ==== Proof.lean ====
/-
  A three-layer graph convolution network with mean pooling and a softmax classifier: the Pallas kernel against its
  jnp reference, as extended reals.

  Both programs compute, from node features `x`, an edge list and a graph assignment: the edges with one self-loop per
  node; each node's in-degree `deg`; `dinv = deg^(-1/2)` where `deg > 0`, else `0`; the edge weight `dinv(src)·dinv(dst)`;
  three times `h ← max(scatter_dst((h·W)[src] · weight) + b, 0)`; the per-graph mean of `h`; and the row softmax of
  `mean·Wl + bl`. The kernel computes each projection `h·W`, each bias-and-relu and the classifier head in a pipelined
  region (the projections and the relu ten thousand rows at a time, the products after a change of float format that is
  the identity on extended reals) and leaves the gathers and scatters to host operations, computing the edge weights
  once; the reference writes every step as a host operation and recomputes the weights in every layer.

  The equivalence needs no algebra beyond reading a tile of a product or of a pointwise expression as the corresponding
  rows of the whole array, and reading the head's reductions as the fold and the sum they are: every host operation of
  one program is literally a host operation of the other on equal operands, so the two results are one function,
  `Network.out`, of the eleven arguments (Proof/Chain.lean for the kernel, Proof/RefTerm.lean for the reference). No
  finiteness of the inputs is used. The three frames are the generated frame certificates (the reference's is its run
  with the result forgotten), and the idealization rewrote nothing, so `preserves` is trivial.
-/
import proofs.«101654_j53386443489830_1_alg».proof.Defs
import proofs.«101654_j53386443489830_1_alg».proof.Proof.Gen.Kernel
import proofs.«101654_j53386443489830_1_alg».proof.Proof.Gen.Kernel.Frame
import proofs.«101654_j53386443489830_1_alg».proof.Proof.Gen.KernelIdeal
import proofs.«101654_j53386443489830_1_alg».proof.Proof.Gen.KernelIdeal.Frame
import proofs.«101654_j53386443489830_1_alg».proof.Proof.Gen.ReferenceIdeal
import proofs.«101654_j53386443489830_1_alg».proof.Proof.Gen.Pre_finite_inputs
import proofs.«101654_j53386443489830_1_alg».proof.Proof.NamedRun
import proofs.«101654_j53386443489830_1_alg».proof.Proof.Chain
import proofs.«101654_j53386443489830_1_alg».proof.Proof.RefRun
import proofs.«101654_j53386443489830_1_alg».proof.Proof.RefTerm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the eleven arguments both programs end with the network of those arguments at their
    result: the kernel's last segment boundary holds it (`Chain.result_eq`), the reference's composed term is it
    (`RefValue.result_eq`). -/
theorem algebraic : Cert.algebraic_KernelIdeal_ReferenceIdeal := by
  intro m ρ m' ρ' _ hagree
  refine ⟨fun c => Cert.Network.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.RefValue.result_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
